-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x224x224 : Shape := ⟨4, ![8, 128, 224, 224]⟩
abbrev S_ : Shape := ⟨0, ![]⟩

class Facts : Prop where
  bcast_S_S8x128x224x224 : S_.BroadcastsInDim S8x128x224x224 (![] : Fin 0 → Fin S8x128x224x224.rank)
  reducesTo_S8x128x224x224_S_d0_1_2_3 : S8x128x224x224.ReducesTo [0, 1, 2, 3] S_
  h_S_ : 0 < S_.numel

variable [Facts]

def fn {F : FTy → Type} [FloatOps F] (main_arg0 : FVec F S8x128x224x224 .f32) : IVec S_ 1 :=
  let main_v0 : FVec F S8x128x224x224 .f32 := Host.absf main_arg0
  let main_cst : FVec F S_ .f32 := constant S_ .f32 0x7F800000#32
  let main_v1 : FVec F S8x128x224x224 .f32 := broadcastInDim S8x128x224x224 ![] bcast_S_S8x128x224x224 main_cst
  let main_v2 : IVec S8x128x224x224 1 := cmpf .olt main_v0 main_v1
  let main_c : IVec S_ 1 := constantI S_ 1 1#1
  let main_v3 : IVec S_ 1 := (fun x v => Host.reduce IntOp.andi x v reducesTo_S8x128x224x224_S_d0_1_2_3 h_S_) main_v2 main_c
  main_v3
-- ==== Kernel.lean ====
abbrev S8x128x224x224 : Shape := ⟨4, ![8, 128, 224, 224]⟩
abbrev S8x8x222x222 : Shape := ⟨4, ![8, 8, 222, 222]⟩
abbrev S1x32x224x224 : Shape := ⟨4, ![1, 32, 224, 224]⟩
abbrev S1x8x222x222 : Shape := ⟨4, ![1, 8, 222, 222]⟩
abbrev S8x222x222 : Shape := ⟨3, ![8, 222, 222]⟩
abbrev S32x224x224 : Shape := ⟨3, ![32, 224, 224]⟩
abbrev S32x223x223 : Shape := ⟨3, ![32, 223, 223]⟩
abbrev S223x223 : Shape := ⟨2, ![223, 223]⟩
abbrev S222x222 : Shape := ⟨2, ![222, 222]⟩
abbrev S32x223x224 : Shape := ⟨3, ![32, 223, 224]⟩
abbrev S223x224 : Shape := ⟨2, ![223, 224]⟩
abbrev S32x224x223 : Shape := ⟨3, ![32, 224, 223]⟩
abbrev S224x223 : Shape := ⟨2, ![224, 223]⟩
abbrev S1x1x222x222 : Shape := ⟨4, ![1, 1, 222, 222]⟩

abbrev nBuf : Space → Nat
  | .hbm => 2
  | .vmem => 4
  | .smem => 0
  | _ => 0

abbrev bufTy : (tb : Table) → Fin (tcTables nBuf tb) → BufTy
  | .hbm, ⟨0, _⟩ => ⟨S8x128x224x224, .f32⟩
  | .hbm, ⟨1, _⟩ => ⟨S8x8x222x222, .f32⟩
  | .local _ .vmem, ⟨0, _⟩ => ⟨S1x32x224x224, .f32⟩
  | .local _ .vmem, ⟨1, _⟩ => ⟨S1x32x224x224, .f32⟩
  | .local _ .vmem, ⟨2, _⟩ => ⟨S1x8x222x222, .f32⟩
  | .local _ .vmem, ⟨3, _⟩ => ⟨S1x8x222x222, .f32⟩
  | _, _ => ⟨S8x128x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x222x222 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x8x222x222_S1x8x222x222_0_0_0_0 : ∀ a, (![0, 0, 0, 0] : Fin 4 → Nat) a + S1x8x222x222.size a ≤ S1x8x222x222.size a
  h_S1x8x222x222 : 0 < S1x8x222x222.numel
  shapeCasts_S1x8x222x222_S8x222x222 : S1x8x222x222.ShapeCasts S8x222x222
  shapeCasts_S8x222x222_S1x8x222x222 : S8x222x222.ShapeCasts S1x8x222x222
  inb_S1x32x224x224_S1x32x224x224_0_0_0_0 : ∀ a, (![0, 0, 0, 0] : Fin 4 → Nat) a + S1x32x224x224.size a ≤ S1x32x224x224.size a
  h_S1x32x224x224 : 0 < S1x32x224x224.numel
  shapeCasts_S1x32x224x224_S32x224x224 : S1x32x224x224.ShapeCasts S32x224x224
  slices_S32x224x224_o0_0_0_S32x223x223 : S32x224x224.Slices ![0, 0, 0] S32x223x223
  slices_S32x224x224_o0_1_1_S32x223x223 : S32x224x224.Slices ![0, 1, 1] S32x223x223
  reduces_S32x223x223_S223x223 : S32x223x223.Reduces [0] S223x223
  slices_S223x223_o0_0_S222x222 : S223x223.Slices ![0, 0] S222x222
  slices_S223x223_o1_1_S222x222 : S223x223.Slices ![1, 1] S222x222
  slices_S32x224x224_o0_0_0_S32x223x224 : S32x224x224.Slices ![0, 0, 0] S32x223x224
  slices_S32x224x224_o0_1_0_S32x223x224 : S32x224x224.Slices ![0, 1, 0] S32x223x224
  reduces_S32x223x224_S223x224 : S32x223x224.Reduces [0] S223x224
  slices_S223x224_o0_1_S222x222 : S223x224.Slices ![0, 1] S222x222
  slices_S223x224_o1_1_S222x222 : S223x224.Slices ![1, 1] S222x222
  slices_S32x224x224_o0_0_1_S32x223x223 : S32x224x224.Slices ![0, 0, 1] S32x223x223
  slices_S32x224x224_o0_1_0_S32x223x223 : S32x224x224.Slices ![0, 1, 0] S32x223x223
  slices_S223x223_o0_1_S222x222 : S223x223.Slices ![0, 1] S222x222
  slices_S223x223_o1_0_S222x222 : S223x223.Slices ![1, 0] S222x222
  slices_S32x224x224_o0_0_0_S32x224x223 : S32x224x224.Slices ![0, 0, 0] S32x224x223
  slices_S32x224x224_o0_0_1_S32x224x223 : S32x224x224.Slices ![0, 0, 1] S32x224x223
  reduces_S32x224x223_S224x223 : S32x224x223.Reduces [0] S224x223
  slices_S224x223_o1_0_S222x222 : S224x223.Slices ![1, 0] S222x222
  slices_S224x223_o1_1_S222x222 : S224x223.Slices ![1, 1] S222x222
  inb_S1x8x222x222_S1x1x222x222_0_0_0_0 : ∀ a, (![0, 0, 0, 0] : Fin 4 → Nat) a + S1x1x222x222.size a ≤ S1x8x222x222.size a
  h_S1x1x222x222 : 0 < S1x1x222x222.numel
  shapeCasts_S1x1x222x222_S222x222 : S1x1x222x222.ShapeCasts S222x222
  shapeCasts_S222x222_S1x1x222x222 : S222x222.ShapeCasts S1x1x222x222
  inb_S1x8x222x222_S1x1x222x222_0_1_0_0 : ∀ a, (![0, 1, 0, 0] : Fin 4 → Nat) a + S1x1x222x222.size a ≤ S1x8x222x222.size a
  inb_S1x8x222x222_S1x1x222x222_0_2_0_0 : ∀ a, (![0, 2, 0, 0] : Fin 4 → Nat) a + S1x1x222x222.size a ≤ S1x8x222x222.size a
  inb_S1x8x222x222_S1x1x222x222_0_3_0_0 : ∀ a, (![0, 3, 0, 0] : Fin 4 → Nat) a + S1x1x222x222.size a ≤ S1x8x222x222.size a
  inb_S1x8x222x222_S1x1x222x222_0_4_0_0 : ∀ a, (![0, 4, 0, 0] : Fin 4 → Nat) a + S1x1x222x222.size a ≤ S1x8x222x222.size a
  inb_S1x8x222x222_S1x1x222x222_0_5_0_0 : ∀ a, (![0, 5, 0, 0] : Fin 4 → Nat) a + S1x1x222x222.size a ≤ S1x8x222x222.size a
  inb_S1x8x222x222_S1x1x222x222_0_6_0_0 : ∀ a, (![0, 6, 0, 0] : Fin 4 → Nat) a + S1x1x222x222.size a ≤ S1x8x222x222.size a
  inb_S1x8x222x222_S1x1x222x222_0_7_0_0 : ∀ a, (![0, 7, 0, 0] : Fin 4 → Nat) a + S1x1x222x222.size a ≤ S1x8x222x222.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x224x224.size a ≤ S8x128x224x224.size a
  hwx0_0 : ∀ i : grid0.Coords, EltTy.bits .f32 = 32 ∨ (Rect.block (s := S8x128x224x224) S1x32x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x222x222.size a ≤ S8x8x222x222.size a
  hwx0_1 : ∀ i : grid0.Coords, EltTy.bits .f32 = 32 ∨ (Rect.block (s := S8x8x222x222) S1x8x222x222.size (cc0_transform_1 i) (hinb0_1 i)).WholeWords (EltTy.packing .f32)

variable [Facts₀]

abbrev win0_0 : Pipeline.Window sig grid0 :=
  Pipeline.Window.ofSpec (Memref.whole main_arg0) S1x32x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x222x222.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x128x224x224 : Shape := ⟨4, ![8, 128, 224, 224]⟩
abbrev S8x128x222x222 : Shape := ⟨4, ![8, 128, 222, 222]⟩
abbrev S_ : Shape := ⟨0, ![]⟩
abbrev S8x222x222 : Shape := ⟨3, ![8, 222, 222]⟩
abbrev S8x1x222x222 : Shape := ⟨4, ![8, 1, 222, 222]⟩
abbrev S8x8x222x222 : Shape := ⟨4, ![8, 8, 222, 222]⟩

abbrev nBuf : Space → Nat
  | .hbm => 52
  | .vmem => 0
  | .smem => 0
  | _ => 0

abbrev bufTy : (tb : Table) → Fin (tcTables nBuf tb) → BufTy
  | .hbm, ⟨0, _⟩ => ⟨S8x128x224x224, .f32⟩
  | .hbm, ⟨1, _⟩ => ⟨S8x128x222x222, .f32⟩
  | .hbm, ⟨2, _⟩ => ⟨S8x128x222x222, .f32⟩
  | .hbm, ⟨3, _⟩ => ⟨S8x128x222x222, .f32⟩
  | .hbm, ⟨4, _⟩ => ⟨S8x128x222x222, .f32⟩
  | .hbm, ⟨5, _⟩ => ⟨S_, .f32⟩
  | .hbm, ⟨6, _⟩ => ⟨S8x222x222, .f32⟩
  | .hbm, ⟨7, _⟩ => ⟨S8x128x222x222, .f32⟩
  | .hbm, ⟨8, _⟩ => ⟨S8x128x222x222, .f32⟩
  | .hbm, ⟨9, _⟩ => ⟨S8x128x222x222, .f32⟩
  | .hbm, ⟨10, _⟩ => ⟨S_, .f32⟩
  | .hbm, ⟨11, _⟩ => ⟨S8x222x222, .f32⟩
  | .hbm, ⟨12, _⟩ => ⟨S8x128x222x222, .f32⟩
  | .hbm, ⟨13, _⟩ => ⟨S8x128x222x222, .f32⟩
  | .hbm, ⟨14, _⟩ => ⟨S8x128x222x222, .f32⟩
  | .hbm, ⟨15, _⟩ => ⟨S_, .f32⟩
  | .hbm, ⟨16, _⟩ => ⟨S8x222x222, .f32⟩
  | .hbm, ⟨17, _⟩ => ⟨S8x128x222x222, .f32⟩
  | .hbm, ⟨18, _⟩ => ⟨S8x128x222x222, .f32⟩
  | .hbm, ⟨19, _⟩ => ⟨S8x128x222x222, .f32⟩
  | .hbm, ⟨20, _⟩ => ⟨S_, .f32⟩
  | .hbm, ⟨21, _⟩ => ⟨S8x222x222, .f32⟩
  | .hbm, ⟨22, _⟩ => ⟨S8x128x222x222, .f32⟩
  | .hbm, ⟨23, _⟩ => ⟨S8x128x222x222, .f32⟩
  | .hbm, ⟨24, _⟩ => ⟨S8x128x222x222, .f32⟩
  | .hbm, ⟨25, _⟩ => ⟨S_, .f32⟩
  | .hbm, ⟨26, _⟩ => ⟨S8x222x222, .f32⟩
  | .hbm, ⟨27, _⟩ => ⟨S8x128x222x222, .f32⟩
  | .hbm, ⟨28, _⟩ => ⟨S8x128x222x222, .f32⟩
  | .hbm, ⟨29, _⟩ => ⟨S8x128x222x222, .f32⟩
  | .hbm, ⟨30, _⟩ => ⟨S_, .f32⟩
  | .hbm, ⟨31, _⟩ => ⟨S8x222x222, .f32⟩
  | .hbm, ⟨32, _⟩ => ⟨S8x128x222x222, .f32⟩
  | .hbm, ⟨33, _⟩ => ⟨S8x128x222x222, .f32⟩
  | .hbm, ⟨34, _⟩ => ⟨S8x128x222x222, .f32⟩
  | .hbm, ⟨35, _⟩ => ⟨S_, .f32⟩
  | .hbm, ⟨36, _⟩ => ⟨S8x222x222, .f32⟩
  | .hbm, ⟨37, _⟩ => ⟨S8x128x222x222, .f32⟩
  | .hbm, ⟨38, _⟩ => ⟨S8x128x222x222, .f32⟩
  | .hbm, ⟨39, _⟩ => ⟨S8x128x222x222, .f32⟩
  | .hbm, ⟨40, _⟩ => ⟨S_, .f32⟩
  | .hbm, ⟨41, _⟩ => ⟨S8x222x222, .f32⟩
  | .hbm, ⟨42, _⟩ => ⟨S8x1x222x222, .f32⟩
  | .hbm, ⟨43, _⟩ => ⟨S8x1x222x222, .f32⟩
  | .hbm, ⟨44, _⟩ => ⟨S8x1x222x222, .f32⟩
  | .hbm, ⟨45, _⟩ => ⟨S8x1x222x222, .f32⟩
  | .hbm, ⟨46, _⟩ => ⟨S8x1x222x222, .f32⟩
  | .hbm, ⟨47, _⟩ => ⟨S8x1x222x222, .f32⟩
  | .hbm, ⟨48, _⟩ => ⟨S8x1x222x222, .f32⟩
  | .hbm, ⟨49, _⟩ => ⟨S8x1x222x222, .f32⟩
  | .hbm, ⟨50, _⟩ => ⟨S8x8x222x222, .f32⟩
  | .hbm, ⟨51, _⟩ => ⟨S8x8x222x222, .f32⟩
  | _, _ => ⟨S8x128x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_4 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_5 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]

class Facts₀ : Prop where
  slices_S8x128x224x224_S8x128x222x222_0_0_1_1 : S8x128x224x224.Slices ![0, 0, 1, 1] S8x128x222x222
  slices_S8x128x224x224_S8x128x222x222_0_0_0_0 : S8x128x224x224.Slices ![0, 0, 0, 0] S8x128x222x222
  reducesTo_S8x128x222x222_S8x222x222_d1 : S8x128x222x222.ReducesTo [1] S8x222x222
  h_S_ : 0 < S_.numel
  slices_S8x128x224x224_S8x128x222x222_0_0_0_1 : S8x128x224x224.Slices ![0, 0, 0, 1] S8x128x222x222
  slices_S8x128x224x224_S8x128x222x222_0_0_0_2 : S8x128x224x224.Slices ![0, 0, 0, 2] S8x128x222x222
  slices_S8x128x224x224_S8x128x222x222_0_0_1_0 : S8x128x224x224.Slices ![0, 0, 1, 0] S8x128x222x222
  slices_S8x128x224x224_S8x128x222x222_0_0_1_2 : S8x128x224x224.Slices ![0, 0, 1, 2] S8x128x222x222
  slices_S8x128x224x224_S8x128x222x222_0_0_2_0 : S8x128x224x224.Slices ![0, 0, 2, 0] S8x128x222x222
  slices_S8x128x224x224_S8x128x222x222_0_0_2_1 : S8x128x224x224.Slices ![0, 0, 2, 1] S8x128x222x222
  slices_S8x128x224x224_S8x128x222x222_0_0_2_2 : S8x128x224x224.Slices ![0, 0, 2, 2] S8x128x222x222
  bcast_S8x222x222_S8x1x222x222_0_2_3 : S8x222x222.BroadcastsInDim S8x1x222x222 (![0, 2, 3] : Fin 3 → Fin S8x1x222x222.rank)
  concatenates_S8x1x222x222_S8x1x222x222_S8x1x222x222_S8x1x222x222_S8x1x222x222_S8x1x222x222_S8x1x222x222_S8x1x222x222_S8x8x222x222_d1 : Shape.Concatenates [S8x1x222x222, S8x1x222x222, S8x1x222x222, S8x1x222x222, S8x1x222x222, S8x1x222x222, S8x1x222x222, S8x1x222x222] S8x8x222x222 1

variable [Facts₀]

class Facts : Prop extends Facts₀ where

variable [Facts]
-- ==== Proof.Spec.lean ====
/-
  The mathematics of the pooling, with no program in sight.

  For an array x[b, c, r, s] (8 × 128 × 224 × 224) the result at (b, k, p, q) — k one of the eight neighbours of the
  centre (1 + p, 1 + q) of a 3 × 3 window, p, q < 222 — is minus the sum over the 128 channels of
  |x[b, c, 1 + p, 1 + q] − x[b, c, dR k + p, dC k + q]|.  That is the reference's spelling (`poolRef`).

  The kernel takes the channels in four tiles of 32, for every tile adds one partial sum into a running total that starts
  at zero, and negates the total at the end as 0 − total.  Its absolute differences are spelt through four shifted
  difference maps, so for the first four neighbours the two points of the difference come in the opposite order
  (`aR, aC, bR, bC`).  `poolKer` is that spelling.

  The two agree on all extended reals (`poolKer_eq_poolRef`): |a − b| = |b − a| (`adiff_comm`, true at the infinities
  too, where both sides are ⊤), a sum over 128 channels is the sum of its four consecutive blocks of 32
  (`sum_chan`), 0 + y = y and 0 − y = −y.  Nothing here needs a finite input.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-! ## |a − b| on the extended reals -/

/-- `|a − b|`, as the larger of the difference and its negative. -/
def adiff (a b : EReal) : EReal := max (a - b) (-(a - b))

/-- `|a − b| = |b − a|` for all extended reals: unless both are the same infinity the negative of one difference is the
    other difference; and if they are equal there is nothing to show. -/
theorem adiff_comm (a b : EReal) : adiff a b = adiff b a := by
  unfold adiff
  by_cases h : a = b
  · subst h; rfl
  · have h1 : a ≠ ⊥ ∨ b ≠ ⊥ := by
      by_contra hh
      obtain ⟨ha, hb⟩ := not_or.mp hh
      exact h ((not_not.mp ha).trans (not_not.mp hb).symm)
    have h2 : a ≠ ⊤ ∨ b ≠ ⊤ := by
      by_contra hh
      obtain ⟨ha, hb⟩ := not_or.mp hh
      exact h ((not_not.mp ha).trans (not_not.mp hb).symm)
    have e1 : -(a - b) = b - a := by
      rw [EReal.neg_sub h1 h2, sub_eq_add_neg b a, add_comm]
    have e2 : -(b - a) = a - b := by
      rw [EReal.neg_sub h1.symm h2.symm, sub_eq_add_neg a b, add_comm]
    rw [e1, e2, max_comm]

/-! ## Coordinates -/

/-- Row (or column) `d + p` of the 224-wide image, for a shift `d ≤ 2` and a position `p` of the 222-wide result. -/
def sh (d : Fin 3) (p : Fin 222) : Fin 224 := ⟨d.val + p.val, by have := d.isLt; have := p.isLt; omega⟩

/-- Channel `32·ct + ch`: channel `ch` of tile `ct`. -/
def chan (ct : Fin 4) (ch : Fin 32) : Fin 128 := ⟨32 * ct.val + ch.val, by have := ct.isLt; have := ch.isLt; omega⟩

/-- The eight neighbours of the centre, in row-major order with the centre left out: row shifts … -/
def dR : Fin 8 → Fin 3 := ![0, 0, 0, 1, 1, 2, 2, 2]
/-- … and column shifts. -/
def dC : Fin 8 → Fin 3 := ![0, 1, 2, 0, 2, 0, 1, 2]

/-- The kernel's two points for neighbour `k`: the first point's shifts … -/
def aR : Fin 8 → Fin 3 := ![0, 0, 0, 1, 1, 1, 1, 1]
def aC : Fin 8 → Fin 3 := ![0, 1, 2, 0, 1, 1, 1, 1]
/-- … and the second point's. -/
def bR : Fin 8 → Fin 3 := ![1, 1, 1, 1, 1, 2, 2, 2]
def bC : Fin 8 → Fin 3 := ![1, 1, 1, 1, 2, 0, 1, 2]

/-- For the first four neighbours the kernel's pair is (neighbour, centre), for the last four (centre, neighbour). -/
theorem pair_cases : ∀ k : Fin 8,
    (aR k = dR k ∧ aC k = dC k ∧ bR k = 1 ∧ bC k = 1) ∨ (aR k = 1 ∧ aC k = 1 ∧ bR k = dR k ∧ bC k = dC k) := by
  decide

/-! ## The two spellings -/

/-- One tile's partial sum, over a block `x` of 32 channels: the sum over the block's channels of the absolute difference
    of the two points given by their shifts. -/
def tileT (x : (⟨4, ![1, 32, 224, 224]⟩ : Shape).Idx → EReal) (ar ac br bc : Fin 3) (p q : Fin 222) : EReal :=
  ∑ ch : Fin 32, adiff (x (ix4 (0 : Fin 1) ch (sh ar p) (sh ac q))) (x (ix4 (0 : Fin 1) ch (sh br p) (sh bc q)))

/-- The partial sum for neighbour `k`. -/
def tileTerm (x : (⟨4, ![1, 32, 224, 224]⟩ : Shape).Idx → EReal) (k : Fin 8) (p q : Fin 222) : EReal :=
  tileT x (aR k) (aC k) (bR k) (bC k) p q

/-- The same partial sum read off the whole array: tile `ct` of batch entry `b`. -/
def kerTile (x : (⟨4, ![8, 128, 224, 224]⟩ : Shape).Idx → EReal) (b : Fin 8) (ct : Fin 4) (k : Fin 8) (p q : Fin 222) : EReal :=
  ∑ ch : Fin 32, adiff (x (ix4 b (chan ct ch) (sh (aR k) p) (sh (aC k) q))) (x (ix4 b (chan ct ch) (sh (bR k) p) (sh (bC k) q)))

/-- The kernel's value: the four partial sums added in order onto zero, then subtracted from zero. -/
def poolKer (x : (⟨4, ![8, 128, 224, 224]⟩ : Shape).Idx → EReal) (b : Fin 8) (k : Fin 8) (p q : Fin 222) : EReal :=
  0 - ((((0 + kerTile x b 0 k p q) + kerTile x b 1 k p q) + kerTile x b 2 k p q) + kerTile x b 3 k p q)

/-- The reference's value: minus (zero plus the sum over all channels of |centre − neighbour|). -/
def poolRef (x : (⟨4, ![8, 128, 224, 224]⟩ : Shape).Idx → EReal) (b : Fin 8) (k : Fin 8) (p q : Fin 222) : EReal :=
  -(0 + ∑ c : Fin 128, adiff (x (ix4 b c (sh 1 p) (sh 1 q))) (x (ix4 b c (sh (dR k) p) (sh (dC k) q))))

/-- The result array as one function of the argument array. -/
def pool (x : (⟨4, ![8, 128, 224, 224]⟩ : Shape).Idx → EReal) : (⟨4, ![8, 8, 222, 222]⟩ : Shape).Idx → EReal :=
  fun i => poolRef x (i 0) (i 1) (i 2) (i 3)

theorem pool_apply (x : (⟨4, ![8, 128, 224, 224]⟩ : Shape).Idx → EReal) (b k : Fin 8) (p q : Fin 222) :
    pool x (ix4 b k p q) = poolRef x b k p q := rfl

/-! ## They agree -/

/-- A sum over the 128 channels is the sum over the four tiles of the sums over each tile's 32 channels. -/
theorem sum_chan {M : Type*} [AddCommMonoid M] (g : Fin 128 → M) :
    ∑ c : Fin 128, g c = ∑ ct : Fin 4, ∑ ch : Fin 32, g (chan ct ch) := by
  rw [← Fintype.sum_prod_type' (fun (ct : Fin 4) (ch : Fin 32) => g (chan ct ch))]
  refine (Fintype.sum_equiv (finProdFinEquiv : Fin 4 × Fin 32 ≃ Fin 128) _ _ (fun y => ?_)).symm
  refine congrArg g (Fin.ext ?_)
  show 32 * y.1.val + y.2.val = y.2.val + 32 * y.1.val
  omega

/-- The kernel's absolute difference for neighbour `k` is the reference's. -/
theorem pair_eq (x : (⟨4, ![8, 128, 224, 224]⟩ : Shape).Idx → EReal) (b : Fin 8) (c : Fin 128) (k : Fin 8) (p q : Fin 222) :
    adiff (x (ix4 b c (sh (aR k) p) (sh (aC k) q))) (x (ix4 b c (sh (bR k) p) (sh (bC k) q)))
      = adiff (x (ix4 b c (sh 1 p) (sh 1 q))) (x (ix4 b c (sh (dR k) p) (sh (dC k) q))) := by
  rcases pair_cases k with ⟨h1, h2, h3, h4⟩ | ⟨h1, h2, h3, h4⟩
  · rw [h1, h2, h3, h4]; exact adiff_comm _ _
  · rw [h1, h2, h3, h4]

theorem poolKer_eq_poolRef (x : (⟨4, ![8, 128, 224, 224]⟩ : Shape).Idx → EReal) (b k : Fin 8) (p q : Fin 222) :
    poolKer x b k p q = poolRef x b k p q := by
  unfold poolKer poolRef kerTile
  rw [sum_chan, Fin.sum_univ_four]
  simp only [pair_eq, zero_add, zero_sub]

end Cert.Spec

end
-- ==== Proof.Layout.lean ====
/-
  Re-laid values read at an index, by coordinates: an [a, b] plane seen as a [1, 1, a, b] block, and back.  In row-major
  order the two unit axes contribute nothing to a position, so each reading keeps the two non-unit coordinates.
-/
import Idealize.ShloMosaic.Lib.ValueIdx
import Idealize.ShloMosaic.Lib.ValueLayout
import Idealize.ShloMosaic.Lib.Pipeline.Value

noncomputable section

namespace Cert.Layout

open Idealize.ShloMosaic Idealize.ShloMosaic.ValueIdx

variable {α : Type}

/-- A `[1, 1, a, b]` block seen as an `[a, b]` plane reads, at `(i, j)`, the block at `(0, 0, i, j)`. -/
theorem plane_of_block {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` plane seen as a `[1, 1, a, b]` block reads, at `(u, v, i, j)`, the plane at `(i, j)`. -/
theorem block_of_plane {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

end Cert.Layout

end
-- ==== Proof.TilePay.lean ====
/-
  One tile's arithmetic, read at an index over the extended reals.

  The body takes the 32-channel block x[c, r, s] (224 × 224 per channel), forms four maps of absolute differences summed
  over the channels —
      Da[r, s] = Σ_c |x[c, r, s] − x[c, r+1, s+1]|      Db[r, s] = Σ_c |x[c, r, s] − x[c, r+1, s]|
      Dc[r, s] = Σ_c |x[c, r, s+1] − x[c, r+1, s]|      Dd[r, s] = Σ_c |x[c, r, s] − x[c, r, s+1]|
  — and cuts two 222 × 222 planes out of each.  Each plane is the partial sum `Spec.tileT` of one neighbour: the cut's
  offset added to the map's own two shifts gives the two points of the difference.
-/
import proofs.«151781_j63986422776070_2_alg».proof.Proof.Gen.KernelIdeal.Skeleton
import proofs.«151781_j63986422776070_2_alg».proof.Proof.Spec
import proofs.«151781_j63986422776070_2_alg».proof.Proof.Layout
import Idealize.ShloMosaic.PureOps.Ideal.Laws
import Idealize.ShloMosaic.Lib.Pipeline.Value
import Idealize.ShloMosaic.Lib.ValueLayout

noncomputable section

open scoped BigOperators

namespace Cert.KernelIdeal.Tile

open Cert.KernelIdeal Cert.KernelIdeal.Gen Cert.Spec Idealize.ShloMosaic Idealize.ShloMosaic.ValueIdx

/-- The absolute value of a difference of two arrays, at an index, is `adiff` of their entries. -/
theorem absdiff_apply {s : Shape} {φ : FTy} (a b : FVec Ideal s φ) (i : s.Idx) : absf (subf a b) i = adiff (a i) (b i) := rfl

theorem sh0_val (p : Fin 222) : (sh 0 p).val = p.val := Nat.zero_add _
theorem sh1_val (p : Fin 222) : (sh 1 p).val = 1 + p.val := rfl
theorem sh2_val (p : Fin 222) : (sh 2 p).val = 2 + p.val := rfl

/-- A cut of the block (its unit axis dropped) read at an index whose coordinates are `(ch, r', s')` after the cut's
    offsets are added: the block at `(0, ch, r', s')`. -/
theorem slice_block {T : Shape} (x : Vec Ideal S1x32x224x224 .f32) (off : Fin 3 → ℕ)
    (h : S32x224x224.Slices off T) (i : T.Idx) (ch : Fin 32) (r' s' : Fin 224)
    (hk : ∀ a : Fin 3, (ix3 ch r' s' a).val = off a + (i (a.cast h.1.symm)).val) :
    extractStridedSlice T off (k0_pay6 (F := Ideal) x) h i = x (ix4 (0 : Fin 1) ch r' s') := by
  refine (extractStridedSlice_apply (s := S32x224x224) (t := T) (α := EReal) off (k0_pay6 (F := Ideal) x) h i (ix3 ch r' s') hk).trans ?_
  unfold k0_pay6
  exact shapeCast_1abc_abc_apply x _ ch r' s'

/-- A map of absolute differences of two cuts of the block, summed over the channels, at `(r, s)`. -/
theorem diffmap_apply {R C : ℕ} (x : Vec Ideal S1x32x224x224 .f32) (offa offb : Fin 3 → ℕ)
    (ha : S32x224x224.Slices offa ⟨3, ![32, R, C]⟩) (hb : S32x224x224.Slices offb ⟨3, ![32, R, C]⟩)
    (hred : (⟨3, ![32, R, C]⟩ : Shape).Reduces [0] ⟨2, ![R, C]⟩) (hφ : FKind.Formats .f32)
    (hacc : (0x00000000#32 : BitVec 32) = FKind.add.neutral .f32 hφ)
    (r : Fin R) (s : Fin C) (ra sa rb sb : Fin 224)
    (h0a : offa 0 = 0) (h0b : offb 0 = 0)
    (hra : ra.val = offa 1 + r.val) (hsa : sa.val = offa 2 + s.val)
    (hrb : rb.val = offb 1 + r.val) (hsb : sb.val = offb 2 + s.val) :
    multiReduction .add [0] ⟨2, ![R, C]⟩
        (absf (subf (extractStridedSlice ⟨3, ![32, R, C]⟩ offa (k0_pay6 (F := Ideal) x) ha) (extractStridedSlice ⟨3, ![32, R, C]⟩ offb (k0_pay6 (F := Ideal) x) hb)))
        0x00000000#32 hred hφ hacc (ix2 r s)
      = ∑ ch : Fin 32, adiff (x (ix4 (0 : Fin 1) ch ra sa)) (x (ix4 (0 : Fin 1) ch rb sb)) := by
  refine (Ideal.multiReduction_add_single (φ := .f32) _ 0x00000000#32 hred hφ hacc (ix2 r s)).trans ?_
  refine Finset.sum_congr rfl fun ch _ => ?_
  refine (absdiff_apply _ _ _).trans (congrArg₂ adiff ?_ ?_)
  · exact slice_block x offa ha _ ch ra sa (fun a => match a with
      | ⟨0, _⟩ => by show ch.val = offa 0 + ch.val; omega
      | ⟨1, _⟩ => by show ra.val = offa 1 + r.val; exact hra
      | ⟨2, _⟩ => by show sa.val = offa 2 + s.val; exact hsa)
  · exact slice_block x offb hb _ ch rb sb (fun a => match a with
      | ⟨0, _⟩ => by show ch.val = offb 0 + ch.val; omega
      | ⟨1, _⟩ => by show rb.val = offb 1 + r.val; exact hrb
      | ⟨2, _⟩ => by show sb.val = offb 2 + s.val; exact hsb)

/-! ## The four maps of summed absolute differences -/

/-- `Da[r, s] = Σ_c |x[c, r, s] − x[c, r+1, s+1]|`. -/
theorem mapA_apply (x : Vec Ideal S1x32x224x224 .f32) (r s : Fin 223) (ra sa rb sb : Fin 224)
    (hra : ra.val = r.val) (hsa : sa.val = s.val) (hrb : rb.val = 1 + r.val) (hsb : sb.val = 1 + s.val) :
    k0_pay7 (F := Ideal) x (ix2 r s) = ∑ ch : Fin 32, adiff (x (ix4 (0 : Fin 1) ch ra sa)) (x (ix4 (0 : Fin 1) ch rb sb)) := by
  unfold k0_pay7
  exact diffmap_apply x ![0, 0, 0] ![0, 1, 1] _ _ _ _ _ r s ra sa rb sb rfl rfl
    (by show ra.val = 0 + r.val; omega) (by show sa.val = 0 + s.val; omega)
    (by show rb.val = 1 + r.val; omega) (by show sb.val = 1 + s.val; omega)

/-- `Db[r, s] = Σ_c |x[c, r, s] − x[c, r+1, s]|`. -/
theorem mapB_apply (x : Vec Ideal S1x32x224x224 .f32) (r : Fin 223) (s : Fin 224) (ra sa rb sb : Fin 224)
    (hra : ra.val = r.val) (hsa : sa.val = s.val) (hrb : rb.val = 1 + r.val) (hsb : sb.val = s.val) :
    k0_pay9 (F := Ideal) x (ix2 r s) = ∑ ch : Fin 32, adiff (x (ix4 (0 : Fin 1) ch ra sa)) (x (ix4 (0 : Fin 1) ch rb sb)) := by
  unfold k0_pay9
  exact diffmap_apply x ![0, 0, 0] ![0, 1, 0] _ _ _ _ _ r s ra sa rb sb rfl rfl
    (by show ra.val = 0 + r.val; omega) (by show sa.val = 0 + s.val; omega)
    (by show rb.val = 1 + r.val; omega) (by show sb.val = 0 + s.val; omega)

/-- `Dc[r, s] = Σ_c |x[c, r, s+1] − x[c, r+1, s]|`. -/
theorem mapC_apply (x : Vec Ideal S1x32x224x224 .f32) (r s : Fin 223) (ra sa rb sb : Fin 224)
    (hra : ra.val = r.val) (hsa : sa.val = 1 + s.val) (hrb : rb.val = 1 + r.val) (hsb : sb.val = s.val) :
    k0_pay12 (F := Ideal) x (ix2 r s) = ∑ ch : Fin 32, adiff (x (ix4 (0 : Fin 1) ch ra sa)) (x (ix4 (0 : Fin 1) ch rb sb)) := by
  unfold k0_pay12
  exact diffmap_apply x ![0, 0, 1] ![0, 1, 0] _ _ _ _ _ r s ra sa rb sb rfl rfl
    (by show ra.val = 0 + r.val; omega) (by show sa.val = 1 + s.val; omega)
    (by show rb.val = 1 + r.val; omega) (by show sb.val = 0 + s.val; omega)

/-- `Dd[r, s] = Σ_c |x[c, r, s] − x[c, r, s+1]|`. -/
theorem mapD_apply (x : Vec Ideal S1x32x224x224 .f32) (r : Fin 224) (s : Fin 223) (ra sa rb sb : Fin 224)
    (hra : ra.val = r.val) (hsa : sa.val = s.val) (hrb : rb.val = r.val) (hsb : sb.val = 1 + s.val) :
    k0_pay15 (F := Ideal) x (ix2 r s) = ∑ ch : Fin 32, adiff (x (ix4 (0 : Fin 1) ch ra sa)) (x (ix4 (0 : Fin 1) ch rb sb)) := by
  unfold k0_pay15
  exact diffmap_apply x ![0, 0, 0] ![0, 0, 1] _ _ _ _ _ r s ra sa rb sb rfl rfl
    (by show ra.val = 0 + r.val; omega) (by show sa.val = 0 + s.val; omega)
    (by show rb.val = 0 + r.val; omega) (by show sb.val = 1 + s.val; omega)

/-! ## The eight planes: each is one neighbour's partial sum -/

/-- Neighbour 0 (up-left): `Da[p, q]`. -/
theorem plane0_apply (x : Vec Ideal S1x32x224x224 .f32) (p q : Fin 222) :
    extractStridedSlice S222x222 ![0, 0] (k0_pay7 (F := Ideal) x) slices_S223x223_o0_0_S222x222 (ix2 p q) = tileT x 0 0 1 1 p q := by
  refine (extractStridedSlice_apply (s := S223x223) (t := S222x222) (α := EReal) ![0, 0] (k0_pay7 (F := Ideal) x) slices_S223x223_o0_0_S222x222 (ix2 p q)
    (ix2 (⟨p.val, by have := p.isLt; omega⟩ : Fin 223) (⟨q.val, by have := q.isLt; omega⟩ : Fin 223))
    (fun a => match a with
      | ⟨0, _⟩ => by show p.val = 0 + p.val; omega
      | ⟨1, _⟩ => by show q.val = 0 + q.val; omega)).trans ?_
  exact mapA_apply x _ _ (sh 0 p) (sh 0 q) (sh 1 p) (sh 1 q) (sh0_val p) (sh0_val q) (sh1_val p) (sh1_val q)

/-- Neighbour 7 (down-right): `Da[1+p, 1+q]`. -/
theorem plane7_apply (x : Vec Ideal S1x32x224x224 .f32) (p q : Fin 222) :
    k0_pay8 (F := Ideal) x (ix2 p q) = tileT x 1 1 2 2 p q := by
  unfold k0_pay8
  refine (extractStridedSlice_apply (s := S223x223) (t := S222x222) (α := EReal) ![1, 1] (k0_pay7 (F := Ideal) x) slices_S223x223_o1_1_S222x222 (ix2 p q)
    (ix2 (⟨1 + p.val, by have := p.isLt; omega⟩ : Fin 223) (⟨1 + q.val, by have := q.isLt; omega⟩ : Fin 223))
    (fun a => match a with | ⟨0, _⟩ => rfl | ⟨1, _⟩ => rfl)).trans ?_
  exact mapA_apply x _ _ (sh 1 p) (sh 1 q) (sh 2 p) (sh 2 q) (sh1_val p) (sh1_val q)
    (by rw [sh2_val]; show 2 + p.val = 1 + (1 + p.val); omega) (by rw [sh2_val]; show 2 + q.val = 1 + (1 + q.val); omega)

/-- Neighbour 1 (up): `Db[p, 1+q]`. -/
theorem plane1_apply (x : Vec Ideal S1x32x224x224 .f32) (p q : Fin 222) :
    k0_pay10 (F := Ideal) x (ix2 p q) = tileT x 0 1 1 1 p q := by
  unfold k0_pay10
  refine (extractStridedSlice_apply (s := S223x224) (t := S222x222) (α := EReal) ![0, 1] (k0_pay9 (F := Ideal) x) slices_S223x224_o0_1_S222x222 (ix2 p q)
    (ix2 (⟨p.val, by have := p.isLt; omega⟩ : Fin 223) (⟨1 + q.val, by have := q.isLt; omega⟩ : Fin 224))
    (fun a => match a with
      | ⟨0, _⟩ => by show p.val = 0 + p.val; omega
      | ⟨1, _⟩ => rfl)).trans ?_
  exact mapB_apply x _ _ (sh 0 p) (sh 1 q) (sh 1 p) (sh 1 q) (sh0_val p) (sh1_val q) (sh1_val p) (sh1_val q)

/-- Neighbour 6 (down): `Db[1+p, 1+q]`. -/
theorem plane6_apply (x : Vec Ideal S1x32x224x224 .f32) (p q : Fin 222) :
    k0_pay11 (F := Ideal) x (ix2 p q) = tileT x 1 1 2 1 p q := by
  unfold k0_pay11
  refine (extractStridedSlice_apply (s := S223x224) (t := S222x222) (α := EReal) ![1, 1] (k0_pay9 (F := Ideal) x) slices_S223x224_o1_1_S222x222 (ix2 p q)
    (ix2 (⟨1 + p.val, by have := p.isLt; omega⟩ : Fin 223) (⟨1 + q.val, by have := q.isLt; omega⟩ : Fin 224))
    (fun a => match a with | ⟨0, _⟩ => rfl | ⟨1, _⟩ => rfl)).trans ?_
  exact mapB_apply x _ _ (sh 1 p) (sh 1 q) (sh 2 p) (sh 1 q) (sh1_val p) (sh1_val q)
    (by rw [sh2_val]; show 2 + p.val = 1 + (1 + p.val); omega) (sh1_val q)

/-- Neighbour 2 (up-right): `Dc[p, 1+q]`. -/
theorem plane2_apply (x : Vec Ideal S1x32x224x224 .f32) (p q : Fin 222) :
    k0_pay13 (F := Ideal) x (ix2 p q) = tileT x 0 2 1 1 p q := by
  unfold k0_pay13
  refine (extractStridedSlice_apply (s := S223x223) (t := S222x222) (α := EReal) ![0, 1] (k0_pay12 (F := Ideal) x) slices_S223x223_o0_1_S222x222 (ix2 p q)
    (ix2 (⟨p.val, by have := p.isLt; omega⟩ : Fin 223) (⟨1 + q.val, by have := q.isLt; omega⟩ : Fin 223))
    (fun a => match a with
      | ⟨0, _⟩ => by show p.val = 0 + p.val; omega
      | ⟨1, _⟩ => rfl)).trans ?_
  exact mapC_apply x _ _ (sh 0 p) (sh 2 q) (sh 1 p) (sh 1 q) (sh0_val p)
    (by rw [sh2_val]; show 2 + q.val = 1 + (1 + q.val); omega) (sh1_val p) (sh1_val q)

/-- Neighbour 5 (down-left): `Dc[1+p, q]`. -/
theorem plane5_apply (x : Vec Ideal S1x32x224x224 .f32) (p q : Fin 222) :
    k0_pay14 (F := Ideal) x (ix2 p q) = tileT x 1 1 2 0 p q := by
  unfold k0_pay14
  refine (extractStridedSlice_apply (s := S223x223) (t := S222x222) (α := EReal) ![1, 0] (k0_pay12 (F := Ideal) x) slices_S223x223_o1_0_S222x222 (ix2 p q)
    (ix2 (⟨1 + p.val, by have := p.isLt; omega⟩ : Fin 223) (⟨q.val, by have := q.isLt; omega⟩ : Fin 223))
    (fun a => match a with
      | ⟨0, _⟩ => rfl
      | ⟨1, _⟩ => by show q.val = 0 + q.val; omega)).trans ?_
  exact mapC_apply x _ _ (sh 1 p) (sh 1 q) (sh 2 p) (sh 0 q) (sh1_val p) (sh1_val q)
    (by rw [sh2_val]; show 2 + p.val = 1 + (1 + p.val); omega) (sh0_val q)

/-- Neighbour 3 (left): `Dd[1+p, q]`. -/
theorem plane3_apply (x : Vec Ideal S1x32x224x224 .f32) (p q : Fin 222) :
    k0_pay16 (F := Ideal) x (ix2 p q) = tileT x 1 0 1 1 p q := by
  unfold k0_pay16
  refine (extractStridedSlice_apply (s := S224x223) (t := S222x222) (α := EReal) ![1, 0] (k0_pay15 (F := Ideal) x) slices_S224x223_o1_0_S222x222 (ix2 p q)
    (ix2 (⟨1 + p.val, by have := p.isLt; omega⟩ : Fin 224) (⟨q.val, by have := q.isLt; omega⟩ : Fin 223))
    (fun a => match a with
      | ⟨0, _⟩ => rfl
      | ⟨1, _⟩ => by show q.val = 0 + q.val; omega)).trans ?_
  exact mapD_apply x _ _ (sh 1 p) (sh 0 q) (sh 1 p) (sh 1 q) (sh1_val p) (sh0_val q) (sh1_val p) (sh1_val q)

/-- Neighbour 4 (right): `Dd[1+p, 1+q]`. -/
theorem plane4_apply (x : Vec Ideal S1x32x224x224 .f32) (p q : Fin 222) :
    k0_pay17 (F := Ideal) x (ix2 p q) = tileT x 1 1 1 2 p q := by
  unfold k0_pay17
  refine (extractStridedSlice_apply (s := S224x223) (t := S222x222) (α := EReal) ![1, 1] (k0_pay15 (F := Ideal) x) slices_S224x223_o1_1_S222x222 (ix2 p q)
    (ix2 (⟨1 + p.val, by have := p.isLt; omega⟩ : Fin 224) (⟨1 + q.val, by have := q.isLt; omega⟩ : Fin 223))
    (fun a => match a with | ⟨0, _⟩ => rfl | ⟨1, _⟩ => rfl)).trans ?_
  exact mapD_apply x _ _ (sh 1 p) (sh 1 q) (sh 1 p) (sh 2 q) (sh1_val p) (sh1_val q) (sh1_val p)
    (by rw [sh2_val]; show 2 + q.val = 1 + (1 + q.val); omega)

end Cert.KernelIdeal.Tile

end
-- ==== Proof.Stores.lean ====
/-
  What each store of the body writes, read at an index over the extended reals.

  A plane's store writes the plane it loaded plus the new partial sums (`plane_add`; the first plane's store has its
  partial sums inline, `store_first`); the reset writes zero everywhere (`zero_block`); the last step writes zero minus
  what it loaded (`negate_block`).
-/
import proofs.«151781_j63986422776070_2_alg».proof.Proof.TilePay

noncomputable section

open scoped BigOperators

namespace Cert.KernelIdeal.Stores

open Cert.KernelIdeal Cert.KernelIdeal.Gen Cert.Spec Cert.KernelIdeal.Tile Idealize.ShloMosaic Idealize.ShloMosaic.ValueIdx

/-- The loaded plane `w` plus the plane `v` of new partial sums, stored back as a `[1, 1, 222, 222]` block. -/
theorem plane_add (v : FVec Ideal S222x222 .f32) (w : Vec Ideal S1x1x222x222 .f32) (u u' : Fin 1) (p q : Fin 222) :
    shapeCast S1x1x222x222 (addf (shapeCast S222x222 w shapeCasts_S1x1x222x222_S222x222) v) shapeCasts_S222x222_S1x1x222x222 (ix4 u u' p q)
      = w (ix4 (0 : Fin 1) (0 : Fin 1) p q) + v (ix2 p q) := by
  refine (Cert.Layout.block_of_plane (a := 222) (b := 222) (α := EReal) _ _ u u' p q).trans ?_
  show shapeCast S222x222 w _ (ix2 p q) + v (ix2 p q) = _
  rw [Cert.Layout.plane_of_block (a := 222) (b := 222) (α := EReal) w _ p q]

theorem store1 (v : FVec Ideal S222x222 .f32) (w : Vec Ideal S1x1x222x222 .f32) (u u' : Fin 1) (p q : Fin 222) :
    k0_pay1 (F := Ideal) v w (ix4 u u' p q) = w (ix4 (0 : Fin 1) (0 : Fin 1) p q) + v (ix2 p q) := plane_add v w u u' p q
theorem store2 (v : FVec Ideal S222x222 .f32) (w : Vec Ideal S1x1x222x222 .f32) (u u' : Fin 1) (p q : Fin 222) :
    k0_pay2 (F := Ideal) v w (ix4 u u' p q) = w (ix4 (0 : Fin 1) (0 : Fin 1) p q) + v (ix2 p q) := plane_add v w u u' p q
theorem store3 (v : FVec Ideal S222x222 .f32) (w : Vec Ideal S1x1x222x222 .f32) (u u' : Fin 1) (p q : Fin 222) :
    k0_pay3 (F := Ideal) v w (ix4 u u' p q) = w (ix4 (0 : Fin 1) (0 : Fin 1) p q) + v (ix2 p q) := plane_add v w u u' p q
theorem store19 (v : FVec Ideal S222x222 .f32) (w : Vec Ideal S1x1x222x222 .f32) (u u' : Fin 1) (p q : Fin 222) :
    k0_pay19 (F := Ideal) v w (ix4 u u' p q) = w (ix4 (0 : Fin 1) (0 : Fin 1) p q) + v (ix2 p q) := plane_add v w u u' p q
theorem store20 (v : FVec Ideal S222x222 .f32) (w : Vec Ideal S1x1x222x222 .f32) (u u' : Fin 1) (p q : Fin 222) :
    k0_pay20 (F := Ideal) v w (ix4 u u' p q) = w (ix4 (0 : Fin 1) (0 : Fin 1) p q) + v (ix2 p q) := plane_add v w u u' p q
theorem store21 (v : FVec Ideal S222x222 .f32) (w : Vec Ideal S1x1x222x222 .f32) (u u' : Fin 1) (p q : Fin 222) :
    k0_pay21 (F := Ideal) v w (ix4 u u' p q) = w (ix4 (0 : Fin 1) (0 : Fin 1) p q) + v (ix2 p q) := plane_add v w u u' p q
theorem store22 (v : FVec Ideal S222x222 .f32) (w : Vec Ideal S1x1x222x222 .f32) (u u' : Fin 1) (p q : Fin 222) :
    k0_pay22 (F := Ideal) v w (ix4 u u' p q) = w (ix4 (0 : Fin 1) (0 : Fin 1) p q) + v (ix2 p q) := plane_add v w u u' p q

/-- The first plane's store: the loaded plane plus neighbour 0's partial sums. -/
theorem store_first (x : Vec Ideal S1x32x224x224 .f32) (w : Vec Ideal S1x1x222x222 .f32) (u u' : Fin 1) (p q : Fin 222) :
    k0_pay18 (F := Ideal) x w (ix4 u u' p q) = w (ix4 (0 : Fin 1) (0 : Fin 1) p q) + tileT x 0 0 1 1 p q := by
  unfold k0_pay18
  refine (plane_add _ w u u' p q).trans ?_
  rw [plane0_apply]

/-- The reset stores zero at every index. -/
theorem zero_block (i : S1x8x222x222.Idx) : k0_pay5 (F := Ideal) i = 0 := by
  show Ideal.ofBits .f32 0x00000000#32 = 0
  exact Ideal.ofBits_zero_f32

/-- The last step stores zero minus what it loaded. -/
theorem negate_block (v : Vec Ideal S1x8x222x222 .f32) (u : Fin 1) (k : Fin 8) (p q : Fin 222) :
    k0_pay4 (F := Ideal) v (ix4 u k p q) = 0 - v (ix4 (0 : Fin 1) k p q) := by
  unfold k0_pay4
  refine (shapeCast_abc_1abc_apply (m := 8) (a := 222) (b := 222) (α := EReal) _ _ u k p q).trans ?_
  show Ideal.ofBits .f32 0x00000000#32 - shapeCast S8x222x222 v _ (ix3 k p q) = _
  rw [Ideal.ofBits_zero_f32, shapeCast_1abc_abc_apply (m := 8) (a := 222) (b := 222) (α := EReal) v _ k p q]

end Cert.KernelIdeal.Stores

end
-- ==== Proof.Cases.lean ====
/-
  What one run of the body leaves in the output block, over the extended reals.

  The body's eight plane stores each write "the plane as loaded plus that neighbour's partial sums of this tile"; together
  they fill the [1, 8, 222, 222] block, so whatever the block held, `xo`, it now holds `xo + tileTerm x k` at plane `k`
  (`stepAdd`, `canon_planes`).  The three cases of the body differ only around that:
    · in the middle of a batch entry's four tiles nothing else happens (`out_mid`);
    · at the first tile the block is first set to zero, and the planes are then loaded from that zero block (`out_first`);
    · at the last tile the block is finally replaced by zero minus itself (`out_last`).
-/
import proofs.«151781_j63986422776070_2_alg».proof.Proof.Gen.KernelIdeal.Frame
import proofs.«151781_j63986422776070_2_alg».proof.Proof.Stores
import Idealize.ShloMosaic.Lib.Pipeline.Value
import Idealize.ShloMosaic.Lib.Pipeline.CanonAppend
import Idealize.ShloMosaic.Lib.Tactic

noncomputable section

open scoped BigOperators

namespace Cert.KernelIdeal.Cases

open Cert.KernelIdeal Cert.KernelIdeal.Gen Cert.Spec Cert.KernelIdeal.Tile Cert.KernelIdeal.Stores
open Idealize.ShloMosaic Idealize.ShloMosaic.ValueIdx Idealize.ShloMosaic.TcCoe Idealize.SL.Sem

/-- The block after the eight plane stores: what it held plus, at plane `k`, neighbour `k`'s partial sums of the tile. -/
def stepAdd (x : Vec Ideal S1x32x224x224 .f32) (xo : Vec Ideal S1x8x222x222 .f32) : Vec Ideal S1x8x222x222 .f32 :=
  fun y => xo y + tileTerm x (y 1) (y 2) (y 3)

theorem hz4 : (![0, 0, 0, 0] : Fin 4 → Nat) = fun _ => 0 := funext fun a => by fin_cases a <;> rfl

/-- Plane `k` of the block, as a rectangle: its local index `(u, u', p, q)` sits at `(0, k, p, q)` of the block. -/
theorem emb_plane (k : Fin 8)
    (inb : ∀ a, (![0, k.val, 0, 0] : Fin 4 → ℕ) a + (![1, 1, 222, 222] : Fin 4 → ℕ) a ≤ S1x8x222x222.size a)
    (u u' : Fin 1) (p q : Fin 222) :
    (Rect.unit (s := S1x8x222x222) ![0, k.val, 0, 0] ![1, 1, 222, 222] inb).emb (ix4 u u' p q) = ix4 (0 : Fin 1) k p q := by
  funext a
  apply Fin.ext
  match a with
  | ⟨0, _⟩ => show 0 + 1 * u.val = 0; omega
  | ⟨1, _⟩ => show k.val + 1 * u'.val = k.val; omega
  | ⟨2, _⟩ => show 0 + 1 * p.val = p.val; omega
  | ⟨3, _⟩ => show 0 + 1 * q.val = q.val; omega

/-- Every index of plane `k` lies in that rectangle. -/
theorem mem_plane (k : Fin 8)
    (inb : ∀ a, (![0, k.val, 0, 0] : Fin 4 → ℕ) a + (![1, 1, 222, 222] : Fin 4 → ℕ) a ≤ S1x8x222x222.size a)
    (u : Fin 1) (p q : Fin 222) :
    (ix4 u k p q : S1x8x222x222.Idx) ∈ (Rect.unit (s := S1x8x222x222) ![0, k.val, 0, 0] ![1, 1, 222, 222] inb).set := by
  rw [Rect.mem_set_unit]
  intro a
  match a with
  | ⟨0, _⟩ => show 0 ≤ u.val ∧ u.val < 0 + 1; omega
  | ⟨1, _⟩ => show k.val ≤ k.val ∧ k.val < k.val + 1; omega
  | ⟨2, _⟩ => show 0 ≤ p.val ∧ p.val < 0 + 222; have := p.isLt; omega
  | ⟨3, _⟩ => show 0 ≤ q.val ∧ q.val < 0 + 222; have := q.isLt; omega

/-- One plane store agrees with `stepAdd` on its rectangle: a payload that adds neighbour `k`'s partial sums to the plane
    it is given, applied to plane `k` of `xo`, is `stepAdd x xo` at the block index the local index names. -/
theorem piece_fact (x : Vec Ideal S1x32x224x224 .f32) (xo : Vec Ideal S1x8x222x222 .f32) (k : Fin 8)
    (inb : ∀ a, (![0, k.val, 0, 0] : Fin 4 → ℕ) a + (![1, 1, 222, 222] : Fin 4 → ℕ) a ≤ S1x8x222x222.size a)
    (pay : Vec Ideal S1x1x222x222 .f32 → FVec Ideal S1x1x222x222 .f32)
    (hpay : ∀ (w : Vec Ideal S1x1x222x222 .f32) (u u' : Fin 1) (p q : Fin 222),
      pay w (ix4 u u' p q) = w (ix4 (0 : Fin 1) (0 : Fin 1) p q) + tileTerm x k p q)
    (x' : (Rect.unit (s := S1x8x222x222) ![0, k.val, 0, 0] ![1, 1, 222, 222] inb).shape.Idx) :
    pay (View.ld xo (Rect.unit (s := S1x8x222x222) ![0, k.val, 0, 0] ![1, 1, 222, 222] inb)) x'
      = stepAdd x xo ((Rect.unit (s := S1x8x222x222) ![0, k.val, 0, 0] ![1, 1, 222, 222] inb).emb x') := by
  obtain ⟨u, u', p, q, rfl⟩ : ∃ (u u' : Fin 1) (p q : Fin 222), x' = ix4 u u' p q := ⟨x' 0, x' 1, x' 2, x' 3, eq_ix4 x'⟩
  rw [hpay, emb_plane k inb u u' p q]
  show xo ((Rect.unit (s := S1x8x222x222) ![0, k.val, 0, 0] ![1, 1, 222, 222] inb).emb (ix4 (0 : Fin 1) (0 : Fin 1) p q)) + _ = _
  rw [emb_plane k inb 0 0 p q]
  rfl

/-- The eight plane stores, last first, each loading its own plane of `xo`. -/
def planes (x : Vec Ideal S1x32x224x224 .f32) (xo : Vec Ideal S1x8x222x222 .f32) : List (View.Piece (Elt Ideal) S1x8x222x222 .f32) :=
  [
    (⟨(Rect.unit (s := S1x8x222x222) ![0, 7, 0, 0] ![1, 1, 222, 222] inb_S1x8x222x222_S1x1x222x222_0_7_0_0), k0_pay3 (k0_pay8 x) (View.ld xo (Rect.unit (s := S1x8x222x222) ![0, 7, 0, 0] ![1, 1, 222, 222] inb_S1x8x222x222_S1x1x222x222_0_7_0_0))⟩ : View.Piece (Elt Ideal) S1x8x222x222 .f32),
    (⟨(Rect.unit (s := S1x8x222x222) ![0, 6, 0, 0] ![1, 1, 222, 222] inb_S1x8x222x222_S1x1x222x222_0_6_0_0), k0_pay2 (k0_pay11 x) (View.ld xo (Rect.unit (s := S1x8x222x222) ![0, 6, 0, 0] ![1, 1, 222, 222] inb_S1x8x222x222_S1x1x222x222_0_6_0_0))⟩ : View.Piece (Elt Ideal) S1x8x222x222 .f32),
    (⟨(Rect.unit (s := S1x8x222x222) ![0, 5, 0, 0] ![1, 1, 222, 222] inb_S1x8x222x222_S1x1x222x222_0_5_0_0), k0_pay1 (k0_pay14 x) (View.ld xo (Rect.unit (s := S1x8x222x222) ![0, 5, 0, 0] ![1, 1, 222, 222] inb_S1x8x222x222_S1x1x222x222_0_5_0_0))⟩ : View.Piece (Elt Ideal) S1x8x222x222 .f32),
    (⟨(Rect.unit (s := S1x8x222x222) ![0, 4, 0, 0] ![1, 1, 222, 222] inb_S1x8x222x222_S1x1x222x222_0_4_0_0), k0_pay22 (k0_pay17 x) (View.ld xo (Rect.unit (s := S1x8x222x222) ![0, 4, 0, 0] ![1, 1, 222, 222] inb_S1x8x222x222_S1x1x222x222_0_4_0_0))⟩ : View.Piece (Elt Ideal) S1x8x222x222 .f32),
    (⟨(Rect.unit (s := S1x8x222x222) ![0, 3, 0, 0] ![1, 1, 222, 222] inb_S1x8x222x222_S1x1x222x222_0_3_0_0), k0_pay21 (k0_pay16 x) (View.ld xo (Rect.unit (s := S1x8x222x222) ![0, 3, 0, 0] ![1, 1, 222, 222] inb_S1x8x222x222_S1x1x222x222_0_3_0_0))⟩ : View.Piece (Elt Ideal) S1x8x222x222 .f32),
    (⟨(Rect.unit (s := S1x8x222x222) ![0, 2, 0, 0] ![1, 1, 222, 222] inb_S1x8x222x222_S1x1x222x222_0_2_0_0), k0_pay20 (k0_pay13 x) (View.ld xo (Rect.unit (s := S1x8x222x222) ![0, 2, 0, 0] ![1, 1, 222, 222] inb_S1x8x222x222_S1x1x222x222_0_2_0_0))⟩ : View.Piece (Elt Ideal) S1x8x222x222 .f32),
    (⟨(Rect.unit (s := S1x8x222x222) ![0, 1, 0, 0] ![1, 1, 222, 222] inb_S1x8x222x222_S1x1x222x222_0_1_0_0), k0_pay19 (k0_pay10 x) (View.ld xo (Rect.unit (s := S1x8x222x222) ![0, 1, 0, 0] ![1, 1, 222, 222] inb_S1x8x222x222_S1x1x222x222_0_1_0_0))⟩ : View.Piece (Elt Ideal) S1x8x222x222 .f32),
    (⟨(Rect.unit (s := S1x8x222x222) ![0, 0, 0, 0] ![1, 1, 222, 222] inb_S1x8x222x222_S1x1x222x222_0_0_0_0), k0_pay18 x (View.ld xo (Rect.unit (s := S1x8x222x222) ![0, 0, 0, 0] ![1, 1, 222, 222] inb_S1x8x222x222_S1x1x222x222_0_0_0_0))⟩ : View.Piece (Elt Ideal) S1x8x222x222 .f32) ]

theorem planes_apply (x : Vec Ideal S1x32x224x224 .f32) (xo : Vec Ideal S1x8x222x222 .f32) :
    ∀ pc ∈ planes x xo, ∀ x' : pc.1.shape.Idx, pc.2 x' = stepAdd x xo (pc.1.emb x') := by
  intro pc hpc
  unfold planes at hpc
  simp only [List.mem_cons, List.not_mem_nil, or_false] at hpc
  rcases hpc with rfl | rfl | rfl | rfl | rfl | rfl | rfl | rfl
  · exact piece_fact x xo 7 _ (fun w => k0_pay3 (k0_pay8 x) w)
      (fun w u u' p q => (store3 _ w u u' p q).trans (congrArg (fun t => w (ix4 (0 : Fin 1) (0 : Fin 1) p q) + t) (plane7_apply x p q)))
  · exact piece_fact x xo 6 _ (fun w => k0_pay2 (k0_pay11 x) w)
      (fun w u u' p q => (store2 _ w u u' p q).trans (congrArg (fun t => w (ix4 (0 : Fin 1) (0 : Fin 1) p q) + t) (plane6_apply x p q)))
  · exact piece_fact x xo 5 _ (fun w => k0_pay1 (k0_pay14 x) w)
      (fun w u u' p q => (store1 _ w u u' p q).trans (congrArg (fun t => w (ix4 (0 : Fin 1) (0 : Fin 1) p q) + t) (plane5_apply x p q)))
  · exact piece_fact x xo 4 _ (fun w => k0_pay22 (k0_pay17 x) w)
      (fun w u u' p q => (store22 _ w u u' p q).trans (congrArg (fun t => w (ix4 (0 : Fin 1) (0 : Fin 1) p q) + t) (plane4_apply x p q)))
  · exact piece_fact x xo 3 _ (fun w => k0_pay21 (k0_pay16 x) w)
      (fun w u u' p q => (store21 _ w u u' p q).trans (congrArg (fun t => w (ix4 (0 : Fin 1) (0 : Fin 1) p q) + t) (plane3_apply x p q)))
  · exact piece_fact x xo 2 _ (fun w => k0_pay20 (k0_pay13 x) w)
      (fun w u u' p q => (store20 _ w u u' p q).trans (congrArg (fun t => w (ix4 (0 : Fin 1) (0 : Fin 1) p q) + t) (plane2_apply x p q)))
  · exact piece_fact x xo 1 _ (fun w => k0_pay19 (k0_pay10 x) w)
      (fun w u u' p q => (store19 _ w u u' p q).trans (congrArg (fun t => w (ix4 (0 : Fin 1) (0 : Fin 1) p q) + t) (plane1_apply x p q)))
  · exact piece_fact x xo 0 _ (fun w => k0_pay18 x w) (fun w u u' p q => store_first x w u u' p q)

theorem planes_cover (x : Vec Ideal S1x32x224x224 .f32) (xo : Vec Ideal S1x8x222x222 .f32) (y : S1x8x222x222.Idx) :
    ∃ pc ∈ planes x xo, y ∈ pc.1.set := by
  obtain ⟨u, k, p, q, rfl⟩ : ∃ (u : Fin 1) (k : Fin 8) (p q : Fin 222), y = ix4 u k p q := ⟨y 0, y 1, y 2, y 3, eq_ix4 y⟩
  match k with
  | ⟨0, _⟩ =>
    exact ⟨(⟨(Rect.unit (s := S1x8x222x222) ![0, 0, 0, 0] ![1, 1, 222, 222] inb_S1x8x222x222_S1x1x222x222_0_0_0_0), k0_pay18 x (View.ld xo (Rect.unit (s := S1x8x222x222) ![0, 0, 0, 0] ![1, 1, 222, 222] inb_S1x8x222x222_S1x1x222x222_0_0_0_0))⟩ : View.Piece (Elt Ideal) S1x8x222x222 .f32),
      by unfold planes; simp only [List.mem_cons, true_or, or_true], mem_plane 0 inb_S1x8x222x222_S1x1x222x222_0_0_0_0 u p q⟩
  | ⟨1, _⟩ =>
    exact ⟨(⟨(Rect.unit (s := S1x8x222x222) ![0, 1, 0, 0] ![1, 1, 222, 222] inb_S1x8x222x222_S1x1x222x222_0_1_0_0), k0_pay19 (k0_pay10 x) (View.ld xo (Rect.unit (s := S1x8x222x222) ![0, 1, 0, 0] ![1, 1, 222, 222] inb_S1x8x222x222_S1x1x222x222_0_1_0_0))⟩ : View.Piece (Elt Ideal) S1x8x222x222 .f32),
      by unfold planes; simp only [List.mem_cons, true_or, or_true], mem_plane 1 inb_S1x8x222x222_S1x1x222x222_0_1_0_0 u p q⟩
  | ⟨2, _⟩ =>
    exact ⟨(⟨(Rect.unit (s := S1x8x222x222) ![0, 2, 0, 0] ![1, 1, 222, 222] inb_S1x8x222x222_S1x1x222x222_0_2_0_0), k0_pay20 (k0_pay13 x) (View.ld xo (Rect.unit (s := S1x8x222x222) ![0, 2, 0, 0] ![1, 1, 222, 222] inb_S1x8x222x222_S1x1x222x222_0_2_0_0))⟩ : View.Piece (Elt Ideal) S1x8x222x222 .f32),
      by unfold planes; simp only [List.mem_cons, true_or, or_true], mem_plane 2 inb_S1x8x222x222_S1x1x222x222_0_2_0_0 u p q⟩
  | ⟨3, _⟩ =>
    exact ⟨(⟨(Rect.unit (s := S1x8x222x222) ![0, 3, 0, 0] ![1, 1, 222, 222] inb_S1x8x222x222_S1x1x222x222_0_3_0_0), k0_pay21 (k0_pay16 x) (View.ld xo (Rect.unit (s := S1x8x222x222) ![0, 3, 0, 0] ![1, 1, 222, 222] inb_S1x8x222x222_S1x1x222x222_0_3_0_0))⟩ : View.Piece (Elt Ideal) S1x8x222x222 .f32),
      by unfold planes; simp only [List.mem_cons, true_or, or_true], mem_plane 3 inb_S1x8x222x222_S1x1x222x222_0_3_0_0 u p q⟩
  | ⟨4, _⟩ =>
    exact ⟨(⟨(Rect.unit (s := S1x8x222x222) ![0, 4, 0, 0] ![1, 1, 222, 222] inb_S1x8x222x222_S1x1x222x222_0_4_0_0), k0_pay22 (k0_pay17 x) (View.ld xo (Rect.unit (s := S1x8x222x222) ![0, 4, 0, 0] ![1, 1, 222, 222] inb_S1x8x222x222_S1x1x222x222_0_4_0_0))⟩ : View.Piece (Elt Ideal) S1x8x222x222 .f32),
      by unfold planes; simp only [List.mem_cons, true_or, or_true], mem_plane 4 inb_S1x8x222x222_S1x1x222x222_0_4_0_0 u p q⟩
  | ⟨5, _⟩ =>
    exact ⟨(⟨(Rect.unit (s := S1x8x222x222) ![0, 5, 0, 0] ![1, 1, 222, 222] inb_S1x8x222x222_S1x1x222x222_0_5_0_0), k0_pay1 (k0_pay14 x) (View.ld xo (Rect.unit (s := S1x8x222x222) ![0, 5, 0, 0] ![1, 1, 222, 222] inb_S1x8x222x222_S1x1x222x222_0_5_0_0))⟩ : View.Piece (Elt Ideal) S1x8x222x222 .f32),
      by unfold planes; simp only [List.mem_cons, true_or, or_true], mem_plane 5 inb_S1x8x222x222_S1x1x222x222_0_5_0_0 u p q⟩
  | ⟨6, _⟩ =>
    exact ⟨(⟨(Rect.unit (s := S1x8x222x222) ![0, 6, 0, 0] ![1, 1, 222, 222] inb_S1x8x222x222_S1x1x222x222_0_6_0_0), k0_pay2 (k0_pay11 x) (View.ld xo (Rect.unit (s := S1x8x222x222) ![0, 6, 0, 0] ![1, 1, 222, 222] inb_S1x8x222x222_S1x1x222x222_0_6_0_0))⟩ : View.Piece (Elt Ideal) S1x8x222x222 .f32),
      by unfold planes; simp only [List.mem_cons, true_or, or_true], mem_plane 6 inb_S1x8x222x222_S1x1x222x222_0_6_0_0 u p q⟩
  | ⟨7, _⟩ =>
    exact ⟨(⟨(Rect.unit (s := S1x8x222x222) ![0, 7, 0, 0] ![1, 1, 222, 222] inb_S1x8x222x222_S1x1x222x222_0_7_0_0), k0_pay3 (k0_pay8 x) (View.ld xo (Rect.unit (s := S1x8x222x222) ![0, 7, 0, 0] ![1, 1, 222, 222] inb_S1x8x222x222_S1x1x222x222_0_7_0_0))⟩ : View.Piece (Elt Ideal) S1x8x222x222 .f32),
      by unfold planes; simp only [List.mem_cons, true_or, or_true], mem_plane 7 inb_S1x8x222x222_S1x1x222x222_0_7_0_0 u p q⟩

/-- The eight plane stores leave `stepAdd x xo`. -/
theorem canon_planes (x : Vec Ideal S1x32x224x224 .f32) (xo : Vec Ideal S1x8x222x222 .f32) :
    View.canon (planes x xo) = stepAdd x xo :=
  funext fun y => View.canon_apply_of_pieces (stepAdd x xo) (planes x xo) (planes_apply x xo) y (planes_cover x xo y)

/-! ## The three cases of the body -/

/-- A load of one plane after a store to another plane reads what was there before that store. -/
theorem readCov_skip {sig : RefSig} {κ : Kind} {sp : Space} (v : View sig κ sp S1x8x222x222 .f32)
    (offj offk szj szk : Fin 4 → ℕ) (inbj : ∀ a, offj a + szj a ≤ S1x8x222x222.size a) (inbk : ∀ a, offk a + szk a ≤ S1x8x222x222.size a)
    (h : offj 1 + szj 1 ≤ offk 1 ∨ offk 1 + szk 1 ≤ offj 1)
    (w : (Rect.unit (s := S1x8x222x222) offj szj inbj).shape.Idx → Elt Ideal .f32) (L : List (View.Piece (Elt Ideal) S1x8x222x222 .f32)) :
    v.readCov ((⟨Rect.unit (s := S1x8x222x222) offj szj inbj, w⟩ : View.Piece (Elt Ideal) S1x8x222x222 .f32) :: L) (Rect.unit (s := S1x8x222x222) offk szk inbk).toLoadRect
      = v.readCov L (Rect.unit (s := S1x8x222x222) offk szk inbk).toLoadRect :=
  View.readCov_cons_of_disjoint v _ L _ (Rect.unit_disjoint (inb := inbj) (inb' := inbk) 1 h)

/-- In the middle of a batch entry: the block as found plus the tile's partial sums. -/
theorem out_mid (c : Dev nD) (i : grid0.Coords) (a1 : Memref sig .tc .vmem S1x32x224x224 .f32) (h1 : a1.IsWhole)
    (a2 : Memref sig .tc .vmem S1x8x222x222 .f32) (h2 : a2.IsWhole) (hc0 : ¬cond0_0 i) (hc1 : ¬cond0_1 i)
    (x : Vec Ideal S1x32x224x224 .f32) (xo : Vec Ideal S1x8x222x222 .f32) :
    out0_B_1 (F := Ideal) c i a1 h1 a2 h2 hc0 hc1 x xo = stepAdd x xo := by
  unfold out0_B_1
  rw [View.read_writes_eq_canon _ _ _ (cover0_B_1 c i a1 h1 a2 h2 hc0 hc1 x xo)]
  unfold kernelRun0_B
  dsimp only
  sl_unfold_words
  simp only [View.readAt_eq_ld, h1.read_unread, h2.read_unread, View.ld_unit_zero (S := S1x32x224x224) hz4]
  exact canon_planes x xo

/-- At the first tile of a batch entry: the block is set to zero first, so the result is zero plus the tile's partial sums. -/
theorem out_first (c : Dev nD) (i : grid0.Coords) (a1 : Memref sig .tc .vmem S1x32x224x224 .f32) (h1 : a1.IsWhole)
    (a2 : Memref sig .tc .vmem S1x8x222x222 .f32) (h2 : a2.IsWhole) (hc0 : cond0_0 i) (hc1 : ¬cond0_1 i)
    (x : Vec Ideal S1x32x224x224 .f32) :
    out0_A_1 (F := Ideal) c i a1 h1 a2 h2 hc0 hc1 x = stepAdd x (k0_pay5 (F := Ideal)) := by
  unfold out0_A_1
  rw [View.read_writes_eq_canon _ _ _ (cover0_A_1 c i a1 h1 a2 h2 hc0 hc1 x)]
  unfold kernelRun0_A
  dsimp only
  sl_unfold_words
  simp (disch := decide) only [readCov_skip]
  simp only [View.readCov_eq_canon', View.canon_unit_zero (S := S1x8x222x222) hz4, View.readAt_eq_ld, h1.read_unread,
    View.ld_unit_zero (S := S1x32x224x224) hz4]
  funext y
  exact View.canon_append_of_pieces (stepAdd x (k0_pay5 (F := Ideal)))
    [(⟨Rect.unit (s := S1x8x222x222) ![0, 0, 0, 0] ![1, 8, 222, 222] inb_S1x8x222x222_S1x8x222x222_0_0_0_0, k0_pay5 (F := Ideal)⟩ : View.Piece (Elt Ideal) S1x8x222x222 .f32)]
    (planes x (k0_pay5 (F := Ideal))) (planes_apply x (k0_pay5 (F := Ideal))) y (planes_cover x (k0_pay5 (F := Ideal)) y)

/-- At the last tile of a batch entry: after the planes are added the block is replaced by zero minus itself. -/
theorem out_last (c : Dev nD) (i : grid0.Coords) (a1 : Memref sig .tc .vmem S1x32x224x224 .f32) (h1 : a1.IsWhole)
    (a2 : Memref sig .tc .vmem S1x8x222x222 .f32) (h2 : a2.IsWhole) (hc0 : ¬cond0_0 i) (hc1 : cond0_1 i)
    (x : Vec Ideal S1x32x224x224 .f32) (xo : Vec Ideal S1x8x222x222 .f32) :
    out0_C_1 (F := Ideal) c i a1 h1 a2 h2 hc0 hc1 x xo = k0_pay4 (F := Ideal) (stepAdd x xo) := by
  unfold out0_C_1
  rw [View.read_writes_eq_canon _ _ _ (cover0_C_1 c i a1 h1 a2 h2 hc0 hc1 x xo)]
  unfold kernelRun0_C
  dsimp only
  sl_unfold_words
  simp only [View.readAt_eq_ld, h1.read_unread, h2.read_unread, View.ld_unit_zero (S := S1x32x224x224) hz4]
  rw [View.canon_cons_unit_zero (S := S1x8x222x222) hz4, View.readCov_eq_canon']
  refine congrArg (k0_pay4 (F := Ideal)) ?_
  show (fun j => View.canon (planes x xo) ((Rect.unit (s := S1x8x222x222) ![0, 0, 0, 0] ![1, 8, 222, 222] inb_S1x8x222x222_S1x8x222x222_0_0_0_0).idx j)) = _
  rw [canon_planes]
  exact View.ld_unit_zero (S := S1x8x222x222) hz4 inb_S1x8x222x222_S1x8x222x222_0_0_0_0 (stepAdd x xo)

end Cert.KernelIdeal.Cases

end
-- ==== Proof.Accum.lean ====
/-
  The output block across the grid.

  The grid runs batch entry by batch entry and, within one, over its four channel tiles; the output block of a batch
  entry stays in place over those four points.  `chain` is what the block holds after each point, by recursion on the
  point: a first tile starts from the zero block, a middle tile adds onto what the point before left, a last tile adds
  and then negates.  The generated frame's running contents are this chain (`outsAt_eq`, by induction on the point), and
  at a last tile the chain has gone through exactly that batch entry's four tiles (`chain_last`).
-/
import proofs.«151781_j63986422776070_2_alg».proof.Proof.Cases

noncomputable section

namespace Cert.KernelIdeal.Accum

open Cert.KernelIdeal Cert.KernelIdeal.Gen Cert.Spec Cert.KernelIdeal.Cases
open Idealize.ShloMosaic Idealize.ShloMosaic.ValueIdx Idealize.ShloMosaic.TcCoe Idealize.SL.Sem

variable (m : (ℓ : Loc nD τ sig) → Buf (Elt Ideal) ℓ)

/-- The output block after point `n`. -/
def chain (c : Dev nD) : (n : ℕ) → n < cfg0.N → Vec Ideal S1x8x222x222 .f32
  | 0, h => stepAdd (iblk m c 0 ⟨0, h⟩) (k0_pay5 (F := Ideal))
  | n + 1, h =>
    if (n + 1) % 4 = 0 then stepAdd (iblk m c 0 ⟨n + 1, h⟩) (k0_pay5 (F := Ideal))
    else if (n + 1) % 4 = 3 then
      k0_pay4 (F := Ideal) (stepAdd (iblk m c 0 ⟨n + 1, h⟩) (chain c n (Nat.lt_of_succ_lt h)))
    else stepAdd (iblk m c 0 ⟨n + 1, h⟩) (chain c n (Nat.lt_of_succ_lt h))

theorem chain_succ (c : Dev nD) (n : ℕ) (h : n + 1 < cfg0.N) :
    chain m c (n + 1) h =
      if (n + 1) % 4 = 0 then stepAdd (iblk m c 0 ⟨n + 1, h⟩) (k0_pay5 (F := Ideal))
      else if (n + 1) % 4 = 3 then
        k0_pay4 (F := Ideal) (stepAdd (iblk m c 0 ⟨n + 1, h⟩) (chain m c n (Nat.lt_of_succ_lt h)))
      else stepAdd (iblk m c 0 ⟨n + 1, h⟩) (chain m c n (Nat.lt_of_succ_lt h)) := rfl

/-- The frame's running contents of the output block are the chain: by induction on the point, the case at each point
    decided by its position among its batch entry's four tiles. -/
theorem outsAt_eq (c : Dev nD) : ∀ (n : ℕ) (h : n < cfg0.N), outsAt0 m c n h = chain m c n h
  | 0, h => (outsAt0_A m c ⟨0, h⟩ rfl (by show ¬(0 % 4 = 3); decide)).trans
      (out_first c (grid0.coords ⟨0, h⟩) (ms0_0 ⟨0, h⟩) (hs0_0 ⟨0, h⟩) (ms0_1 ⟨0, h⟩) (hs0_1 ⟨0, h⟩) _ _ (iblk m c 0 ⟨0, h⟩))
  | n + 1, h => by
    rw [chain_succ]
    by_cases h0 : (n + 1) % 4 = 0
    · have h1 : ¬(n + 1) % 4 = 3 := by omega
      rw [if_pos h0]
      exact (outsAt0_A m c ⟨n + 1, h⟩ h0 h1).trans
        (out_first c (grid0.coords ⟨n + 1, h⟩) (ms0_0 ⟨n + 1, h⟩) (hs0_0 ⟨n + 1, h⟩) (ms0_1 ⟨n + 1, h⟩) (hs0_1 ⟨n + 1, h⟩) _ _ (iblk m c 0 ⟨n + 1, h⟩))
    · by_cases h1 : (n + 1) % 4 = 3
      · rw [if_neg h0, if_pos h1, ← outsAt_eq c n (Nat.lt_of_succ_lt h)]
        exact (outsAt0_C m c ⟨n + 1, h⟩ h0 h1).trans
          (out_last c (grid0.coords ⟨n + 1, h⟩) (ms0_0 ⟨n + 1, h⟩) (hs0_0 ⟨n + 1, h⟩) (ms0_1 ⟨n + 1, h⟩) (hs0_1 ⟨n + 1, h⟩) _ _ (iblk m c 0 ⟨n + 1, h⟩) (outsAt0 m c n (Nat.lt_of_succ_lt h)))
      · rw [if_neg h0, if_neg h1, ← outsAt_eq c n (Nat.lt_of_succ_lt h)]
        exact (outsAt0_B m c ⟨n + 1, h⟩ h0 h1).trans
          (out_mid c (grid0.coords ⟨n + 1, h⟩) (ms0_0 ⟨n + 1, h⟩) (hs0_0 ⟨n + 1, h⟩) (ms0_1 ⟨n + 1, h⟩) (hs0_1 ⟨n + 1, h⟩) _ _ (iblk m c 0 ⟨n + 1, h⟩) (outsAt0 m c n (Nat.lt_of_succ_lt h)))

/-- At the last of a batch entry's four points the chain is: zero block, plus tile 0, plus tile 1, plus tile 2, plus
    tile 3, negated. -/
theorem chain_last (c : Dev nD) (n : ℕ) (h3 : n + 3 < cfg0.N) (hn : n % 4 = 0) :
    chain m c (n + 3) h3
      = k0_pay4 (F := Ideal) (stepAdd (iblk m c 0 ⟨n + 3, h3⟩)
          (stepAdd (iblk m c 0 ⟨n + 2, Nat.lt_of_succ_lt h3⟩)
            (stepAdd (iblk m c 0 ⟨n + 1, Nat.lt_of_succ_lt (Nat.lt_of_succ_lt h3)⟩)
              (stepAdd (iblk m c 0 ⟨n, Nat.lt_of_succ_lt (Nat.lt_of_succ_lt (Nat.lt_of_succ_lt h3))⟩) (k0_pay5 (F := Ideal)))))) := by
  have e0 : chain m c n (Nat.lt_of_succ_lt (Nat.lt_of_succ_lt (Nat.lt_of_succ_lt h3)))
      = stepAdd (iblk m c 0 ⟨n, Nat.lt_of_succ_lt (Nat.lt_of_succ_lt (Nat.lt_of_succ_lt h3))⟩) (k0_pay5 (F := Ideal)) := by
    cases n with
    | zero => rfl
    | succ n' => rw [chain_succ, if_pos hn]
  have e1 : chain m c (n + 1) (Nat.lt_of_succ_lt (Nat.lt_of_succ_lt h3))
      = stepAdd (iblk m c 0 ⟨n + 1, Nat.lt_of_succ_lt (Nat.lt_of_succ_lt h3)⟩)
          (chain m c n (Nat.lt_of_succ_lt (Nat.lt_of_succ_lt (Nat.lt_of_succ_lt h3)))) := by
    rw [chain_succ, if_neg (by omega), if_neg (by omega)]
  have e2 : chain m c (n + 2) (Nat.lt_of_succ_lt h3)
      = stepAdd (iblk m c 0 ⟨n + 2, Nat.lt_of_succ_lt h3⟩) (chain m c (n + 1) (Nat.lt_of_succ_lt (Nat.lt_of_succ_lt h3))) := by
    rw [chain_succ m c (n + 1), if_neg (by omega), if_neg (by omega)]
  have e3 : chain m c (n + 3) h3
      = k0_pay4 (F := Ideal) (stepAdd (iblk m c 0 ⟨n + 3, h3⟩) (chain m c (n + 2) (Nat.lt_of_succ_lt h3))) := by
    rw [chain_succ m c (n + 2), if_neg (by omega), if_pos (by omega)]
  rw [e3, e2, e1, e0]

end Cert.KernelIdeal.Accum

end
-- ==== Proof.KernelValue.lean ====
/-
  The kernel's result array, as one function of its argument array.

  Point `t` of the grid is tile `t % 4` of batch entry `t / 4`: its input block is channels `32·(t % 4) …` of that
  batch entry (`iblk_apply`), so a tile's partial sums over the block are `Spec.kerTile` of the whole array
  (`tile_of_block`).  The output block of batch entry `b` is written back once, after its last tile, holding the chain of
  its four tiles (`Accum.chain_last`), which index by index is `Spec.poolKer`, hence `Spec.pool` (`value_at`,
  `flushed_eq`).  The eight write-backs cover the result array — entry `(b, k, p, q)` lies in batch entry `b`'s block
  (`cover`) — so after the run the array is `Spec.pool` of the argument (`final`, `run`).
-/
import proofs.«151781_j63986422776070_2_alg».proof.Proof.Accum
import proofs.«151781_j63986422776070_2_alg».proof.Proof.Gen.KernelIdeal.Value

noncomputable section

open scoped BigOperators

namespace Cert.KernelIdeal.Final

open Cert.KernelIdeal Cert.KernelIdeal.Gen Cert.Spec Cert.KernelIdeal.Cases Cert.KernelIdeal.Accum Cert.KernelIdeal.Stores
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The two windows' block indices at point `t`, decided over the grid's 32 points: the input's block is
    (batch entry, tile), the output's is the batch entry. -/
theorem idx_facts : ∀ t : Fin cfg0.N,
    win0_0.index t (0 : Fin 4) = t.val / 4 ∧ win0_0.index t (1 : Fin 4) = t.val % 4
    ∧ win0_0.index t (2 : Fin 4) = 0 ∧ win0_0.index t (3 : Fin 4) = 0
    ∧ win0_1.index t (0 : Fin 4) = t.val / 4 ∧ win0_1.index t (1 : Fin 4) = 0
    ∧ win0_1.index t (2 : Fin 4) = 0 ∧ win0_1.index t (3 : Fin 4) = 0 :=
  (by decide +kernel : ∀ t : Fin grid0.N, _)

/-- The input block at point `t` is channels `32·ct + ·` of batch entry `b` of the argument, for `b = t / 4`, `ct = t % 4`. -/
theorem iblk_apply (c : Dev nD) (t : Fin cfg0.N) (b : Fin 8) (ct : Fin 4) (hb : b.val = t.val / 4) (hct : ct.val = t.val % 4)
    (ch : Fin 32) (r s : Fin 224) :
    (iblk m c 0 t : Vec Ideal S1x32x224x224 .f32) (ix4 (0 : Fin 1) ch r s) = V m c main_arg0 (ix4 b (chan ct ch) r s) := by
  obtain ⟨e0, e1, e2, e3, -⟩ := idx_facts t
  show V m c main_arg0 (((cfg0.win 0).blk t).view.emb (ix4 (0 : Fin 1) ch r s)) = _
  refine congrArg (V m c main_arg0) ?_
  funext a
  apply Fin.ext
  match a with
  | ⟨0, _⟩ => show win0_0.index t (0 : Fin 4) * 1 + 1 * (0 : Fin 1).val = b.val; rw [e0, hb]; simp
  | ⟨1, _⟩ => show win0_0.index t (1 : Fin 4) * 32 + 1 * ch.val = 32 * ct.val + ch.val; rw [e1, hct]; omega
  | ⟨2, _⟩ => show win0_0.index t (2 : Fin 4) * 224 + 1 * r.val = r.val; rw [e2]; omega
  | ⟨3, _⟩ => show win0_0.index t (3 : Fin 4) * 224 + 1 * s.val = s.val; rw [e3]; omega

/-- A tile's partial sums over the block at point `t` are the partial sums of tile `t % 4` of batch entry `t / 4`. -/
theorem tile_of_block (c : Dev nD) (t : Fin cfg0.N) (b : Fin 8) (ct : Fin 4) (hb : b.val = t.val / 4) (hct : ct.val = t.val % 4)
    (k : Fin 8) (p q : Fin 222) :
    tileTerm (iblk m c 0 t) k p q = kerTile (V m c main_arg0) b ct k p q := by
  unfold tileTerm tileT kerTile
  refine Finset.sum_congr rfl fun ch _ => ?_
  rw [iblk_apply m c t b ct hb hct, iblk_apply m c t b ct hb hct]

/-- Four tiles chained onto the zero block and negated, read at an index of the block: `pool` of the array at the
    entry the index names. -/
theorem value_at (x : (⟨4, ![8, 128, 224, 224]⟩ : Shape).Idx → EReal) (b : Fin 8)
    (X0 X1 X2 X3 : Vec Ideal S1x32x224x224 .f32)
    (h0 : ∀ k p q, tileTerm X0 k p q = kerTile x b 0 k p q) (h1 : ∀ k p q, tileTerm X1 k p q = kerTile x b 1 k p q)
    (h2 : ∀ k p q, tileTerm X2 k p q = kerTile x b 2 k p q) (h3 : ∀ k p q, tileTerm X3 k p q = kerTile x b 3 k p q)
    (u : Fin 1) (k : Fin 8) (p q : Fin 222) :
    k0_pay4 (F := Ideal) (stepAdd X3 (stepAdd X2 (stepAdd X1 (stepAdd X0 (k0_pay5 (F := Ideal)))))) (ix4 u k p q)
      = pool x (ix4 b k p q) := by
  rw [negate_block, pool_apply, ← poolKer_eq_poolRef]
  show 0 - ((((k0_pay5 (F := Ideal) (ix4 (0 : Fin 1) k p q) + tileTerm X0 k p q) + tileTerm X1 k p q) + tileTerm X2 k p q) + tileTerm X3 k p q) = _
  rw [zero_block, h0, h1, h2, h3]
  rfl

/-- What the write-back after a batch entry's last tile writes: that batch entry's block of `pool` of the argument. -/
theorem flushed_eq (c : Dev nD) (t : Fin cfg0.N) (hf : (cfg0.win 1).flush t = true) :
    (dats m 0 c).flushed 1 t = ((cfg0.win 1).blk t).view.read (Elt Ideal) (pool (V m c main_arg0)) := by
  have hN : cfg0.N = 32 := N_0
  obtain ⟨tv, ht⟩ := t
  have h3 : tv % 4 = 3 := (flush0_1 ⟨tv, ht⟩).mp hf
  obtain ⟨n, rfl⟩ : ∃ n, tv = n + 3 := ⟨tv - 3, by omega⟩
  have hn : n % 4 = 0 := by omega
  have hb : (n + 3) / 4 < 8 := by omega
  obtain ⟨-, -, -, -, e4, e5, e6, e7⟩ := idx_facts ⟨n + 3, ht⟩
  have e4' : win0_1.index ⟨n + 3, ht⟩ (0 : Fin 4) = (n + 3) / 4 := e4
  show (cfg0.win 1).cut (grid0.coords ⟨n + 3, ht⟩) ((dats m 0 c).after 1 ⟨n + 3, ht⟩) = _
  rw [after0_1]
  show (cfg0.win 1).cut (grid0.coords ⟨n + 3, ht⟩) (outsAt0 m c (n + 3) ht) = _
  rw [outsAt_eq, chain_last m c n ht hn]
  funext j
  obtain ⟨u, k, p, q, rfl⟩ : ∃ (u : Fin 1) (k : Fin 8) (p q : Fin 222), j = ix4 u k p q := ⟨j 0, j 1, j 2, j 3, eq_ix4 j⟩
  have hemb : ((cfg0.win 1).blk ⟨n + 3, ht⟩).view.emb (ix4 u k p q) = ix4 (⟨(n + 3) / 4, hb⟩ : Fin 8) k p q := by
    funext a
    apply Fin.ext
    match a with
    | ⟨0, _⟩ => show win0_1.index ⟨n + 3, ht⟩ (0 : Fin 4) * 1 + 1 * u.val = (n + 3) / 4; rw [e4']; omega
    | ⟨1, _⟩ => show win0_1.index ⟨n + 3, ht⟩ (1 : Fin 4) * 8 + 1 * k.val = k.val; rw [e5]; omega
    | ⟨2, _⟩ => show win0_1.index ⟨n + 3, ht⟩ (2 : Fin 4) * 222 + 1 * p.val = p.val; rw [e6]; omega
    | ⟨3, _⟩ => show win0_1.index ⟨n + 3, ht⟩ (3 : Fin 4) * 222 + 1 * q.val = q.val; rw [e7]; omega
  show (k0_pay4 (F := Ideal) _ : Vec Ideal S1x8x222x222 .f32) (ix4 u k p q)
    = pool (V m c main_arg0) (((cfg0.win 1).blk ⟨n + 3, ht⟩).view.emb (ix4 u k p q))
  rw [hemb]
  exact value_at (V m c main_arg0) ⟨(n + 3) / 4, hb⟩
    (iblk m c 0 ⟨n, Nat.lt_of_succ_lt (Nat.lt_of_succ_lt (Nat.lt_of_succ_lt ht))⟩)
    (iblk m c 0 ⟨n + 1, Nat.lt_of_succ_lt (Nat.lt_of_succ_lt ht)⟩)
    (iblk m c 0 ⟨n + 2, Nat.lt_of_succ_lt ht⟩)
    (iblk m c 0 ⟨n + 3, ht⟩)
    (fun k p q => tile_of_block m c ⟨n + 0, Nat.lt_of_succ_lt (Nat.lt_of_succ_lt (Nat.lt_of_succ_lt ht))⟩ ⟨(n + 3) / 4, hb⟩ (0 : Fin 4)
      (by show (n + 3) / 4 = (n + 0) / 4; omega) (by show (0 : ℕ) = (n + 0) % 4; omega) k p q)
    (fun k p q => tile_of_block m c ⟨n + 1, Nat.lt_of_succ_lt (Nat.lt_of_succ_lt ht)⟩ ⟨(n + 3) / 4, hb⟩ (1 : Fin 4)
      (by show (n + 3) / 4 = (n + 1) / 4; omega) (by show (1 : ℕ) = (n + 1) % 4; omega) k p q)
    (fun k p q => tile_of_block m c ⟨n + 2, Nat.lt_of_succ_lt ht⟩ ⟨(n + 3) / 4, hb⟩ (2 : Fin 4)
      (by show (n + 3) / 4 = (n + 2) / 4; omega) (by show (2 : ℕ) = (n + 2) % 4; omega) k p q)
    (fun k p q => tile_of_block m c ⟨n + 3, ht⟩ ⟨(n + 3) / 4, hb⟩ (3 : Fin 4)
      (by show (n + 3) / 4 = (n + 3) / 4; omega) (by show (3 : ℕ) = (n + 3) % 4; omega) k p q)
    u k p q

/-- An index of the result array is in point `t`'s output block iff each coordinate is in the block's range. -/
theorem mem_blk (t : Fin cfg0.N) (i : S8x8x222x222.Idx) :
    i ∈ ((cfg0.win 1).blk t).view.set ↔ ∀ a : Fin 4, win0_1.index t a * S1x8x222x222.size a ≤ (i a).val
      ∧ (i a).val < win0_1.index t a * S1x8x222x222.size a + S1x8x222x222.size a := by
  show i ∈ ((View.whole main_v0).slice (win0_1.rect t)).set ↔ _
  rw [View.set_slice_whole, Rect.mem_set_unit]
  exact Iff.rfl

/-- Entry `(b, k, p, q)` of the result lies in the block written back after batch entry `b`'s last tile, point `4b + 3`. -/
theorem cover (i : S8x8x222x222.Idx) :
    ∃ t : Fin cfg0.N, (cfg0.win 1).flush t = true ∧ i ∈ ((cfg0.win 1).blk t).view.set := by
  have hN : cfg0.N = 32 := N_0
  have h0 : (i 0).val < 8 := (i 0).isLt
  have h1 : (i 1).val < 8 := (i 1).isLt
  have h2 : (i 2).val < 222 := (i 2).isLt
  have h3 : (i 3).val < 222 := (i 3).isLt
  have ht : 4 * (i 0).val + 3 < cfg0.N := by rw [hN]; omega
  obtain ⟨-, -, -, -, e4, e5, e6, e7⟩ := idx_facts ⟨4 * (i 0).val + 3, ht⟩
  have e4' : win0_1.index ⟨4 * (i 0).val + 3, ht⟩ (0 : Fin 4) = (4 * (i 0).val + 3) / 4 := e4
  refine ⟨⟨4 * (i 0).val + 3, ht⟩, (flush0_1 _).mpr (by show (4 * (i 0).val + 3) % 4 = 3; omega), ?_⟩
  rw [mem_blk]
  intro a
  match a with
  | ⟨0, _⟩ =>
    show win0_1.index ⟨4 * (i 0).val + 3, ht⟩ (0 : Fin 4) * 1 ≤ (i 0).val
      ∧ (i 0).val < win0_1.index ⟨4 * (i 0).val + 3, ht⟩ (0 : Fin 4) * 1 + 1
    rw [e4']; omega
  | ⟨1, _⟩ =>
    show win0_1.index ⟨4 * (i 0).val + 3, ht⟩ (1 : Fin 4) * 8 ≤ (i 1).val
      ∧ (i 1).val < win0_1.index ⟨4 * (i 0).val + 3, ht⟩ (1 : Fin 4) * 8 + 8
    rw [e5]; omega
  | ⟨2, _⟩ =>
    show win0_1.index ⟨4 * (i 0).val + 3, ht⟩ (2 : Fin 4) * 222 ≤ (i 2).val
      ∧ (i 2).val < win0_1.index ⟨4 * (i 0).val + 3, ht⟩ (2 : Fin 4) * 222 + 222
    rw [e6]; omega
  | ⟨3, _⟩ =>
    show win0_1.index ⟨4 * (i 0).val + 3, ht⟩ (3 : Fin 4) * 222 ≤ (i 3).val
      ∧ (i 3).val < win0_1.index ⟨4 * (i 0).val + 3, ht⟩ (3 : Fin 4) * 222 + 222
    rw [e7]; omega

/-- After the run the result array holds `pool` of the argument. -/
theorem final (c : Dev nD) : (dats m 0 c).arrAt 1 cfg0.N = pool (V m c main_arg0) :=
  (dats m 0 c).arrAt_eq_of_cover 1 (pool (V m c main_arg0)) (flushed_eq m c) (cover)

/-- The kernel's run: every weakly fair execution ends with the result array at `pool` of the argument array, the
    argument unchanged. -/
theorem run : θ_run defs (onTc (τ := τ) (main (F := Ideal))) ⟨m, fun _ => 0, ρ⟩ fun r => ∀ c : Dev nD,
      r.2.mem ((c : Thread nD τ).loc main_v0) = pool (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Final

end
-- ==== Proof.RefValue.lean ====
/-
  The reference's result array, as the same function `Spec.pool` of its argument.

  The reference cuts the centre window and the eight shifted windows out of the image, takes |centre − neighbour|, sums
  over the channel axis onto zero, stacks the eight planes along a new axis and negates.  Read at `(b, k, p, q)`: the
  stack picks plane `k` (`stack·`), the plane is `0 + Σ_c |x[b, c, 1+p, 1+q] − x[b, c, dR k + p, dC k + q]|` (`plane·`), and
  the negation is the extended reals' (`ref_eq`).
-/
import proofs.«151781_j63986422776070_2_alg».proof.Proof.Spec
import proofs.«151781_j63986422776070_2_alg».proof.Proof.Gen.ReferenceIdeal.Read
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.Spec
open Idealize.ShloMosaic Idealize.ShloMosaic.ValueIdx

/-- Neighbour 0: the reference's plane is zero plus the sum over all channels of |centre − neighbour (0, 0)|. -/
theorem plane0 (x0 : (⟨S8x128x224x224, .f32⟩ : BufTy).Contents (Elt Ideal)) (b : Fin 8) (p q : Fin 222) :
    val_main_v33 (F := Ideal) x0 (ix4 b (0 : Fin 1) p q)
      = 0 + ∑ c : Fin 128, adiff (x0 (ix4 b c (sh 1 p) (sh 1 q))) (x0 (ix4 b c (sh 0 p) (sh 0 q))) := by
  rw [val_main_v33_apply, val_main_v4_apply]
  refine congrArg₂ (· + ·) ((val_main_cst_apply _).trans Ideal.ofBits_zero_f32) (Finset.sum_congr rfl fun c _ => ?_)
  rw [val_main_v3_apply, val_main_v2_apply, val_main_v0_apply, val_main_v1_apply]
  refine congrArg₂ adiff (congrArg x0 ?_) (congrArg x0 ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => exact (Nat.zero_add _).symm
    | ⟨3, _⟩ => exact (Nat.zero_add _).symm

/-- Neighbour 1: the reference's plane is zero plus the sum over all channels of |centre − neighbour (0, 1)|. -/
theorem plane1 (x0 : (⟨S8x128x224x224, .f32⟩ : BufTy).Contents (Elt Ideal)) (b : Fin 8) (p q : Fin 222) :
    val_main_v34 (F := Ideal) x0 (ix4 b (0 : Fin 1) p q)
      = 0 + ∑ c : Fin 128, adiff (x0 (ix4 b c (sh 1 p) (sh 1 q))) (x0 (ix4 b c (sh 0 p) (sh 1 q))) := by
  rw [val_main_v34_apply, val_main_v8_apply]
  refine congrArg₂ (· + ·) ((val_main_cst_0_apply _).trans Ideal.ofBits_zero_f32) (Finset.sum_congr rfl fun c _ => ?_)
  rw [val_main_v7_apply, val_main_v6_apply, val_main_v0_apply, val_main_v5_apply]
  refine congrArg₂ adiff (congrArg x0 ?_) (congrArg x0 ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => exact (Nat.zero_add _).symm
    | ⟨3, _⟩ => exact rfl

/-- Neighbour 2: the reference's plane is zero plus the sum over all channels of |centre − neighbour (0, 2)|. -/
theorem plane2 (x0 : (⟨S8x128x224x224, .f32⟩ : BufTy).Contents (Elt Ideal)) (b : Fin 8) (p q : Fin 222) :
    val_main_v35 (F := Ideal) x0 (ix4 b (0 : Fin 1) p q)
      = 0 + ∑ c : Fin 128, adiff (x0 (ix4 b c (sh 1 p) (sh 1 q))) (x0 (ix4 b c (sh 0 p) (sh 2 q))) := by
  rw [val_main_v35_apply, val_main_v12_apply]
  refine congrArg₂ (· + ·) ((val_main_cst_1_apply _).trans Ideal.ofBits_zero_f32) (Finset.sum_congr rfl fun c _ => ?_)
  rw [val_main_v11_apply, val_main_v10_apply, val_main_v0_apply, val_main_v9_apply]
  refine congrArg₂ adiff (congrArg x0 ?_) (congrArg x0 ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => exact (Nat.zero_add _).symm
    | ⟨3, _⟩ => exact rfl

/-- Neighbour 3: the reference's plane is zero plus the sum over all channels of |centre − neighbour (1, 0)|. -/
theorem plane3 (x0 : (⟨S8x128x224x224, .f32⟩ : BufTy).Contents (Elt Ideal)) (b : Fin 8) (p q : Fin 222) :
    val_main_v36 (F := Ideal) x0 (ix4 b (0 : Fin 1) p q)
      = 0 + ∑ c : Fin 128, adiff (x0 (ix4 b c (sh 1 p) (sh 1 q))) (x0 (ix4 b c (sh 1 p) (sh 0 q))) := by
  rw [val_main_v36_apply, val_main_v16_apply]
  refine congrArg₂ (· + ·) ((val_main_cst_2_apply _).trans Ideal.ofBits_zero_f32) (Finset.sum_congr rfl fun c _ => ?_)
  rw [val_main_v15_apply, val_main_v14_apply, val_main_v0_apply, val_main_v13_apply]
  refine congrArg₂ adiff (congrArg x0 ?_) (congrArg x0 ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => exact rfl
    | ⟨3, _⟩ => exact (Nat.zero_add _).symm

/-- Neighbour 4: the reference's plane is zero plus the sum over all channels of |centre − neighbour (1, 2)|. -/
theorem plane4 (x0 : (⟨S8x128x224x224, .f32⟩ : BufTy).Contents (Elt Ideal)) (b : Fin 8) (p q : Fin 222) :
    val_main_v37 (F := Ideal) x0 (ix4 b (0 : Fin 1) p q)
      = 0 + ∑ c : Fin 128, adiff (x0 (ix4 b c (sh 1 p) (sh 1 q))) (x0 (ix4 b c (sh 1 p) (sh 2 q))) := by
  rw [val_main_v37_apply, val_main_v20_apply]
  refine congrArg₂ (· + ·) ((val_main_cst_3_apply _).trans Ideal.ofBits_zero_f32) (Finset.sum_congr rfl fun c _ => ?_)
  rw [val_main_v19_apply, val_main_v18_apply, val_main_v0_apply, val_main_v17_apply]
  refine congrArg₂ adiff (congrArg x0 ?_) (congrArg x0 ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => exact rfl
    | ⟨3, _⟩ => exact rfl

/-- Neighbour 5: the reference's plane is zero plus the sum over all channels of |centre − neighbour (2, 0)|. -/
theorem plane5 (x0 : (⟨S8x128x224x224, .f32⟩ : BufTy).Contents (Elt Ideal)) (b : Fin 8) (p q : Fin 222) :
    val_main_v38 (F := Ideal) x0 (ix4 b (0 : Fin 1) p q)
      = 0 + ∑ c : Fin 128, adiff (x0 (ix4 b c (sh 1 p) (sh 1 q))) (x0 (ix4 b c (sh 2 p) (sh 0 q))) := by
  rw [val_main_v38_apply, val_main_v24_apply]
  refine congrArg₂ (· + ·) ((val_main_cst_4_apply _).trans Ideal.ofBits_zero_f32) (Finset.sum_congr rfl fun c _ => ?_)
  rw [val_main_v23_apply, val_main_v22_apply, val_main_v0_apply, val_main_v21_apply]
  refine congrArg₂ adiff (congrArg x0 ?_) (congrArg x0 ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => exact rfl
    | ⟨3, _⟩ => exact (Nat.zero_add _).symm

/-- Neighbour 6: the reference's plane is zero plus the sum over all channels of |centre − neighbour (2, 1)|. -/
theorem plane6 (x0 : (⟨S8x128x224x224, .f32⟩ : BufTy).Contents (Elt Ideal)) (b : Fin 8) (p q : Fin 222) :
    val_main_v39 (F := Ideal) x0 (ix4 b (0 : Fin 1) p q)
      = 0 + ∑ c : Fin 128, adiff (x0 (ix4 b c (sh 1 p) (sh 1 q))) (x0 (ix4 b c (sh 2 p) (sh 1 q))) := by
  rw [val_main_v39_apply, val_main_v28_apply]
  refine congrArg₂ (· + ·) ((val_main_cst_5_apply _).trans Ideal.ofBits_zero_f32) (Finset.sum_congr rfl fun c _ => ?_)
  rw [val_main_v27_apply, val_main_v26_apply, val_main_v0_apply, val_main_v25_apply]
  refine congrArg₂ adiff (congrArg x0 ?_) (congrArg x0 ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => exact rfl
    | ⟨3, _⟩ => exact rfl

/-- Neighbour 7: the reference's plane is zero plus the sum over all channels of |centre − neighbour (2, 2)|. -/
theorem plane7 (x0 : (⟨S8x128x224x224, .f32⟩ : BufTy).Contents (Elt Ideal)) (b : Fin 8) (p q : Fin 222) :
    val_main_v40 (F := Ideal) x0 (ix4 b (0 : Fin 1) p q)
      = 0 + ∑ c : Fin 128, adiff (x0 (ix4 b c (sh 1 p) (sh 1 q))) (x0 (ix4 b c (sh 2 p) (sh 2 q))) := by
  rw [val_main_v40_apply, val_main_v32_apply]
  refine congrArg₂ (· + ·) ((val_main_cst_6_apply _).trans Ideal.ofBits_zero_f32) (Finset.sum_congr rfl fun c _ => ?_)
  rw [val_main_v31_apply, val_main_v30_apply, val_main_v0_apply, val_main_v29_apply]
  refine congrArg₂ adiff (congrArg x0 ?_) (congrArg x0 ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => exact rfl
    | ⟨3, _⟩ => exact rfl

/-- Plane 0 of the stack is the first operand. -/
theorem stack0 (x0 : (⟨S8x128x224x224, .f32⟩ : BufTy).Contents (Elt Ideal)) (b : Fin 8) (p q : Fin 222) :
    val_main_v41 (F := Ideal) x0 (ix4 b (0 : Fin 8) p q) = val_main_v33 (F := Ideal) x0 (ix4 b (0 : Fin 1) p q) := by
  unfold val_main_v41
  exact concatenate_apply_piece (1 : Fin 4) _ _ (ix4 b (0 : Fin 8) p q) 0 (by show (0 : ℕ) < 8; decide) S8x1x222x222 (val_main_v33 (F := Ideal) x0) rfl rfl 0 rfl
    (ix4 b (0 : Fin 1) p q)
    (fun a ha => match a, ha with
      | ⟨0, _⟩, _ => rfl
      | ⟨1, _⟩, ha => absurd rfl ha
      | ⟨2, _⟩, _ => rfl
      | ⟨3, _⟩, _ => rfl)
    rfl

/-- Plane 1 of the stack is the 2th operand. -/
theorem stack1 (x0 : (⟨S8x128x224x224, .f32⟩ : BufTy).Contents (Elt Ideal)) (b : Fin 8) (p q : Fin 222) :
    val_main_v41 (F := Ideal) x0 (ix4 b (1 : Fin 8) p q) = val_main_v34 (F := Ideal) x0 (ix4 b (0 : Fin 1) p q) := by
  unfold val_main_v41
  exact concatenate_apply_piece (1 : Fin 4) _ _ (ix4 b (1 : Fin 8) p q) 1 (by show (1 : ℕ) < 8; decide) S8x1x222x222 (val_main_v34 (F := Ideal) x0) rfl rfl 1 rfl
    (ix4 b (0 : Fin 1) p q)
    (fun a ha => match a, ha with
      | ⟨0, _⟩, _ => rfl
      | ⟨1, _⟩, ha => absurd rfl ha
      | ⟨2, _⟩, _ => rfl
      | ⟨3, _⟩, _ => rfl)
    rfl

/-- Plane 2 of the stack is the 3th operand. -/
theorem stack2 (x0 : (⟨S8x128x224x224, .f32⟩ : BufTy).Contents (Elt Ideal)) (b : Fin 8) (p q : Fin 222) :
    val_main_v41 (F := Ideal) x0 (ix4 b (2 : Fin 8) p q) = val_main_v35 (F := Ideal) x0 (ix4 b (0 : Fin 1) p q) := by
  unfold val_main_v41
  exact concatenate_apply_piece (1 : Fin 4) _ _ (ix4 b (2 : Fin 8) p q) 2 (by show (2 : ℕ) < 8; decide) S8x1x222x222 (val_main_v35 (F := Ideal) x0) rfl rfl 2 rfl
    (ix4 b (0 : Fin 1) p q)
    (fun a ha => match a, ha with
      | ⟨0, _⟩, _ => rfl
      | ⟨1, _⟩, ha => absurd rfl ha
      | ⟨2, _⟩, _ => rfl
      | ⟨3, _⟩, _ => rfl)
    rfl

/-- Plane 3 of the stack is the 4th operand. -/
theorem stack3 (x0 : (⟨S8x128x224x224, .f32⟩ : BufTy).Contents (Elt Ideal)) (b : Fin 8) (p q : Fin 222) :
    val_main_v41 (F := Ideal) x0 (ix4 b (3 : Fin 8) p q) = val_main_v36 (F := Ideal) x0 (ix4 b (0 : Fin 1) p q) := by
  unfold val_main_v41
  exact concatenate_apply_piece (1 : Fin 4) _ _ (ix4 b (3 : Fin 8) p q) 3 (by show (3 : ℕ) < 8; decide) S8x1x222x222 (val_main_v36 (F := Ideal) x0) rfl rfl 3 rfl
    (ix4 b (0 : Fin 1) p q)
    (fun a ha => match a, ha with
      | ⟨0, _⟩, _ => rfl
      | ⟨1, _⟩, ha => absurd rfl ha
      | ⟨2, _⟩, _ => rfl
      | ⟨3, _⟩, _ => rfl)
    rfl

/-- Plane 4 of the stack is the 5th operand. -/
theorem stack4 (x0 : (⟨S8x128x224x224, .f32⟩ : BufTy).Contents (Elt Ideal)) (b : Fin 8) (p q : Fin 222) :
    val_main_v41 (F := Ideal) x0 (ix4 b (4 : Fin 8) p q) = val_main_v37 (F := Ideal) x0 (ix4 b (0 : Fin 1) p q) := by
  unfold val_main_v41
  exact concatenate_apply_piece (1 : Fin 4) _ _ (ix4 b (4 : Fin 8) p q) 4 (by show (4 : ℕ) < 8; decide) S8x1x222x222 (val_main_v37 (F := Ideal) x0) rfl rfl 4 rfl
    (ix4 b (0 : Fin 1) p q)
    (fun a ha => match a, ha with
      | ⟨0, _⟩, _ => rfl
      | ⟨1, _⟩, ha => absurd rfl ha
      | ⟨2, _⟩, _ => rfl
      | ⟨3, _⟩, _ => rfl)
    rfl

/-- Plane 5 of the stack is the 6th operand. -/
theorem stack5 (x0 : (⟨S8x128x224x224, .f32⟩ : BufTy).Contents (Elt Ideal)) (b : Fin 8) (p q : Fin 222) :
    val_main_v41 (F := Ideal) x0 (ix4 b (5 : Fin 8) p q) = val_main_v38 (F := Ideal) x0 (ix4 b (0 : Fin 1) p q) := by
  unfold val_main_v41
  exact concatenate_apply_piece (1 : Fin 4) _ _ (ix4 b (5 : Fin 8) p q) 5 (by show (5 : ℕ) < 8; decide) S8x1x222x222 (val_main_v38 (F := Ideal) x0) rfl rfl 5 rfl
    (ix4 b (0 : Fin 1) p q)
    (fun a ha => match a, ha with
      | ⟨0, _⟩, _ => rfl
      | ⟨1, _⟩, ha => absurd rfl ha
      | ⟨2, _⟩, _ => rfl
      | ⟨3, _⟩, _ => rfl)
    rfl

/-- Plane 6 of the stack is the 7th operand. -/
theorem stack6 (x0 : (⟨S8x128x224x224, .f32⟩ : BufTy).Contents (Elt Ideal)) (b : Fin 8) (p q : Fin 222) :
    val_main_v41 (F := Ideal) x0 (ix4 b (6 : Fin 8) p q) = val_main_v39 (F := Ideal) x0 (ix4 b (0 : Fin 1) p q) := by
  unfold val_main_v41
  exact concatenate_apply_piece (1 : Fin 4) _ _ (ix4 b (6 : Fin 8) p q) 6 (by show (6 : ℕ) < 8; decide) S8x1x222x222 (val_main_v39 (F := Ideal) x0) rfl rfl 6 rfl
    (ix4 b (0 : Fin 1) p q)
    (fun a ha => match a, ha with
      | ⟨0, _⟩, _ => rfl
      | ⟨1, _⟩, ha => absurd rfl ha
      | ⟨2, _⟩, _ => rfl
      | ⟨3, _⟩, _ => rfl)
    rfl

/-- Plane 7 of the stack is the 8th operand. -/
theorem stack7 (x0 : (⟨S8x128x224x224, .f32⟩ : BufTy).Contents (Elt Ideal)) (b : Fin 8) (p q : Fin 222) :
    val_main_v41 (F := Ideal) x0 (ix4 b (7 : Fin 8) p q) = val_main_v40 (F := Ideal) x0 (ix4 b (0 : Fin 1) p q) := by
  unfold val_main_v41
  exact concatenate_apply_piece (1 : Fin 4) _ _ (ix4 b (7 : Fin 8) p q) 7 (by show (7 : ℕ) < 8; decide) S8x1x222x222 (val_main_v40 (F := Ideal) x0) rfl rfl 7 rfl
    (ix4 b (0 : Fin 1) p q)
    (fun a ha => match a, ha with
      | ⟨0, _⟩, _ => rfl
      | ⟨1, _⟩, ha => absurd rfl ha
      | ⟨2, _⟩, _ => rfl
      | ⟨3, _⟩, _ => rfl)
    rfl

/-- The reference's result is `pool` of its argument. -/
theorem ref_eq (x0 : (⟨S8x128x224x224, .f32⟩ : BufTy).Contents (Elt Ideal)) :
    val_main_v42 (F := Ideal) x0 = pool x0 := by
  funext i
  obtain ⟨b, k, p, q, rfl⟩ : ∃ (b k : Fin 8) (p q : Fin 222), i = ix4 b k p q := ⟨i 0, i 1, i 2, i 3, eq_ix4 i⟩
  rw [val_main_v42_apply, pool_apply]
  show -(val_main_v41 (F := Ideal) x0 (ix4 b k p q)) = poolRef x0 b k p q
  unfold poolRef
  match k with
  | ⟨0, _⟩ => exact congrArg (fun z : EReal => -z) ((stack0 x0 b p q).trans (plane0 x0 b p q))
  | ⟨1, _⟩ => exact congrArg (fun z : EReal => -z) ((stack1 x0 b p q).trans (plane1 x0 b p q))
  | ⟨2, _⟩ => exact congrArg (fun z : EReal => -z) ((stack2 x0 b p q).trans (plane2 x0 b p q))
  | ⟨3, _⟩ => exact congrArg (fun z : EReal => -z) ((stack3 x0 b p q).trans (plane3 x0 b p q))
  | ⟨4, _⟩ => exact congrArg (fun z : EReal => -z) ((stack4 x0 b p q).trans (plane4 x0 b p q))
  | ⟨5, _⟩ => exact congrArg (fun z : EReal => -z) ((stack5 x0 b p q).trans (plane5 x0 b p q))
  | ⟨6, _⟩ => exact congrArg (fun z : EReal => -z) ((stack6 x0 b p q).trans (plane6 x0 b p q))
  | ⟨7, _⟩ => exact congrArg (fun z : EReal => -z) ((stack7 x0 b p q).trans (plane7 x0 b p q))

end Cert.ReferenceIdeal.RefValue

end
-- ==== Proof.lean ====
/- The proof of `Cert.Claim` for the neighbourhood pooling kernel: for an image batch x[b, c, r, s] the result at
   (b, k, p, q) is minus the sum over the channels c of |x[b, c, 1+p, 1+q] − x[b, c, dR k + p, dC k + q]|, k running over
   the eight neighbours of the centre of a 3 × 3 window (`Spec.pool`).

   · The kernel (read over the extended reals) takes the channels in four tiles of 32.  For each tile it adds eight planes
     of partial sums onto the output block of the batch entry — zeroed before the first tile, replaced by zero minus
     itself after the last — and spells half of the absolute differences with the two points swapped.  Its result array
     is `Spec.pool` of the argument (`KernelValue.lean`, over `TilePay`, `Stores`, `Cases`, `Accum`); the algebra that
     joins the two spellings is `Spec.poolKer_eq_poolRef`: |a − b| = |b − a|, a sum over 128 channels taken in four
     blocks of 32, 0 + y = y, 0 − y = −y — all valid on every extended real, so the precondition is never opened.
   · The reference's result array is the same function (`RefValue.lean`).
   · The three frames are the generated ones (the reference's is its generated run with the result dropped), and the
     idealization rewrote nothing, so `preserves` is `True`. -/
import proofs.«151781_j63986422776070_2_alg».proof.Defs
import proofs.«151781_j63986422776070_2_alg».proof.Proof.Gen.Kernel
import proofs.«151781_j63986422776070_2_alg».proof.Proof.Gen.Kernel.Skeleton
import proofs.«151781_j63986422776070_2_alg».proof.Proof.Gen.Kernel.Launch
import proofs.«151781_j63986422776070_2_alg».proof.Proof.Gen.Kernel.Points
import proofs.«151781_j63986422776070_2_alg».proof.Proof.Gen.Kernel.Frame
import proofs.«151781_j63986422776070_2_alg».proof.Proof.Gen.KernelIdeal
import proofs.«151781_j63986422776070_2_alg».proof.Proof.Gen.KernelIdeal.Skeleton
import proofs.«151781_j63986422776070_2_alg».proof.Proof.Gen.KernelIdeal.Launch
import proofs.«151781_j63986422776070_2_alg».proof.Proof.Gen.KernelIdeal.Points
import proofs.«151781_j63986422776070_2_alg».proof.Proof.Gen.KernelIdeal.Frame
import proofs.«151781_j63986422776070_2_alg».proof.Proof.Gen.ReferenceIdeal
import proofs.«151781_j63986422776070_2_alg».proof.Proof.Gen.Pre_finite_inputs
import proofs.«151781_j63986422776070_2_alg».proof.Proof.Gen.KernelIdeal.Value
import proofs.«151781_j63986422776070_2_alg».proof.Proof.Gen.ReferenceIdeal.Run
import proofs.«151781_j63986422776070_2_alg».proof.Proof.Gen.ReferenceIdeal.Read
import proofs.«151781_j63986422776070_2_alg».proof.Proof.KernelValue
import proofs.«151781_j63986422776070_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals both programs end with their result array at `Spec.pool` of argument arrays that agree. -/
theorem algebraic : Cert.algebraic_KernelIdeal_ReferenceIdeal := by
  intro m ρ m' ρ' _ hagree
  refine ⟨fun c => Cert.Spec.pool (m ((c : Thread Cert.KernelIdeal.nD Cert.KernelIdeal.τ).loc Cert.KernelIdeal.main_arg0)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
